-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v127)) (v1 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_v128) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1200000 : Shape := ⟨2, ![2, 1200000]⟩
abbrev S400000x64 : Shape := ⟨2, ![400000, 64]⟩
abbrev S300000x64 : Shape := ⟨2, ![300000, 64]⟩
abbrev S_ : Shape := ⟨0, ![]⟩

class Facts : Prop where
  bcast_S_S400000x64 : S_.BroadcastsInDim S400000x64 (![] : Fin 0 → Fin S400000x64.rank)
  reducesTo_S400000x64_S_d0_1 : S400000x64.ReducesTo [0, 1] S_
  h_S_ : 0 < S_.numel
  bcast_S_S300000x64 : S_.BroadcastsInDim S300000x64 (![] : Fin 0 → Fin S300000x64.rank)
  reducesTo_S300000x64_S_d0_1 : S300000x64.ReducesTo [0, 1] S_

variable [Facts]

def fn {F : FTy → Type} [FloatOps F] (main_arg0 : IVec S2x1200000 32) (main_arg1 : FVec F S400000x64 .f32) (main_arg2 : FVec F S300000x64 .f32) : IVec S_ 1 :=
  let main_v0 : FVec F S400000x64 .f32 := Host.absf main_arg1
  let main_cst : FVec F S_ .f32 := constant S_ .f32 0x7F800000#32
  let main_v1 : FVec F S400000x64 .f32 := broadcastInDim S400000x64 ![] bcast_S_S400000x64 main_cst
  let main_v2 : IVec S400000x64 1 := cmpf .olt main_v0 main_v1
  let main_c : IVec S_ 1 := constantI S_ 1 1#1
  let main_v3 : IVec S_ 1 := (fun x v => Host.reduce IntOp.andi x v reducesTo_S400000x64_S_d0_1 h_S_) main_v2 main_c
  let main_v4 : FVec F S300000x64 .f32 := Host.absf main_arg2
  let main_cst_0 : FVec F S_ .f32 := constant S_ .f32 0x7F800000#32
  let main_v5 : FVec F S300000x64 .f32 := broadcastInDim S300000x64 ![] bcast_S_S300000x64 main_cst_0
  let main_v6 : IVec S300000x64 1 := cmpf .olt main_v4 main_v5
  let main_c_1 : IVec S_ 1 := constantI S_ 1 1#1
  let main_v7 : IVec S_ 1 := (fun x v => Host.reduce IntOp.andi x v reducesTo_S300000x64_S_d0_1 h_S_) main_v6 main_c_1
  let main_v8 : IVec S_ 1 := andi main_v3 main_v7
  main_v8
-- ==== Kernel.lean ====
abbrev S2x1200000 : Shape := ⟨2, ![2, 1200000]⟩
abbrev S400000x64 : Shape := ⟨2, ![400000, 64]⟩
abbrev S300000x64 : Shape := ⟨2, ![300000, 64]⟩
abbrev S1x1200000 : Shape := ⟨2, ![1, 1200000]⟩
abbrev S1200000 : Shape := ⟨1, ![1200000]⟩
abbrev S700000x64 : Shape := ⟨2, ![700000, 64]⟩
abbrev S_ : Shape := ⟨0, ![]⟩
abbrev S700000 : Shape := ⟨1, ![700000]⟩
abbrev S1200000x1 : Shape := ⟨2, ![1200000, 1]⟩
abbrev S1200000x64 : Shape := ⟨2, ![1200000, 64]⟩
abbrev S350000x128 : Shape := ⟨2, ![350000, 128]⟩
abbrev S7000x128 : Shape := ⟨2, ![7000, 128]⟩

abbrev nBuf : Space → Nat
  | .hbm => 164
  | .vmem => 16
  | .smem => 0
  | _ => 0

abbrev hbmTy0_0 (i : Nat) : BufTy := match i % 128 with
  | 0 => ⟨S2x1200000, .i32⟩
  | 1 => ⟨S400000x64, .f32⟩
  | 2 => ⟨S300000x64, .f32⟩
  | 3 => ⟨S1x1200000, .i32⟩
  | 4 => ⟨S1200000, .i32⟩
  | 5 => ⟨S1x1200000, .i32⟩
  | 6 => ⟨S1200000, .i32⟩
  | 7 => ⟨S700000x64, .f32⟩
  | 8 => ⟨S_, .f32⟩
  | 9 => ⟨S700000, .f32⟩
  | 10 => ⟨S_, .i32⟩
  | 11 => ⟨S1200000, .i32⟩
  | 12 => ⟨S1200000, .i1⟩
  | 13 => ⟨S_, .i32⟩
  | 14 => ⟨S1200000, .i32⟩
  | 15 => ⟨S1200000, .i32⟩
  | 16 => ⟨S1200000, .i32⟩
  | 17 => ⟨S1200000x1, .i32⟩
  | 18 => ⟨S_, .f32⟩
  | 19 => ⟨S1200000, .f32⟩
  | 20 => ⟨S700000, .f32⟩
  | 21 => ⟨S_, .f32⟩
  | 22 => ⟨S700000, .f32⟩
  | 23 => ⟨S700000, .f32⟩
  | 24 => ⟨S_, .f32⟩
  | 25 => ⟨S700000, .f32⟩
  | 26 => ⟨S700000, .f32⟩
  | 27 => ⟨S_, .i32⟩
  | 28 => ⟨S1200000, .i32⟩
  | 29 => ⟨S1200000, .i1⟩
  | 30 => ⟨S_, .i32⟩
  | 31 => ⟨S1200000, .i32⟩
  | 32 => ⟨S1200000, .i32⟩
  | 33 => ⟨S1200000, .i32⟩
  | 34 => ⟨S1200000x1, .i32⟩
  | 35 => ⟨S1200000, .f32⟩
  | 36 => ⟨S_, .i32⟩
  | 37 => ⟨S1200000, .i32⟩
  | 38 => ⟨S1200000, .i1⟩
  | 39 => ⟨S_, .i32⟩
  | 40 => ⟨S1200000, .i32⟩
  | 41 => ⟨S1200000, .i32⟩
  | 42 => ⟨S1200000, .i32⟩
  | 43 => ⟨S1200000x1, .i32⟩
  | 44 => ⟨S1200000, .f32⟩
  | 45 => ⟨S1200000, .f32⟩
  | 46 => ⟨S_, .i32⟩
  | 47 => ⟨S1200000, .i32⟩
  | 48 => ⟨S1200000, .i1⟩
  | 49 => ⟨S_, .i32⟩
  | 50 => ⟨S1200000, .i32⟩
  | 51 => ⟨S1200000, .i32⟩
  | 52 => ⟨S1200000, .i32⟩
  | 53 => ⟨S1200000x1, .i32⟩
  | 54 => ⟨S1200000x64, .f32⟩
  | 55 => ⟨S1200000x1, .f32⟩
  | 56 => ⟨S1200000x64, .f32⟩
  | 57 => ⟨S1200000x64, .f32⟩
  | 58 => ⟨S_, .f32⟩
  | 59 => ⟨S700000x64, .f32⟩
  | 60 => ⟨S_, .i32⟩
  | 61 => ⟨S1200000, .i32⟩
  | 62 => ⟨S1200000, .i1⟩
  | 63 => ⟨S_, .i32⟩
  | 64 => ⟨S1200000, .i32⟩
  | 65 => ⟨S1200000, .i32⟩
  | 66 => ⟨S1200000, .i32⟩
  | 67 => ⟨S1200000x1, .i32⟩
  | 68 => ⟨S700000x64, .f32⟩
  | 69 => ⟨S350000x128, .f32⟩
  | 70 => ⟨S350000x128, .f32⟩
  | 71 => ⟨S350000x128, .f32⟩
  | 72 => ⟨S700000x64, .f32⟩
  | 73 => ⟨S_, .i32⟩
  | 74 => ⟨S1200000, .i32⟩
  | 75 => ⟨S1200000, .i1⟩
  | 76 => ⟨S_, .i32⟩
  | 77 => ⟨S1200000, .i32⟩
  | 78 => ⟨S1200000, .i32⟩
  | 79 => ⟨S1200000, .i32⟩
  | 80 => ⟨S1200000x1, .i32⟩
  | 81 => ⟨S1200000, .f32⟩
  | 82 => ⟨S_, .i32⟩
  | 83 => ⟨S1200000, .i32⟩
  | 84 => ⟨S1200000, .i1⟩
  | 85 => ⟨S_, .i32⟩
  | 86 => ⟨S1200000, .i32⟩
  | 87 => ⟨S1200000, .i32⟩
  | 88 => ⟨S1200000, .i32⟩
  | 89 => ⟨S1200000x1, .i32⟩
  | 90 => ⟨S1200000, .f32⟩
  | 91 => ⟨S1200000, .f32⟩
  | 92 => ⟨S_, .i32⟩
  | 93 => ⟨S1200000, .i32⟩
  | 94 => ⟨S1200000, .i1⟩
  | 95 => ⟨S_, .i32⟩
  | 96 => ⟨S1200000, .i32⟩
  | 97 => ⟨S1200000, .i32⟩
  | 98 => ⟨S1200000, .i32⟩
  | 99 => ⟨S1200000x1, .i32⟩
  | 100 => ⟨S1200000x64, .f32⟩
  | 101 => ⟨S1200000x1, .f32⟩
  | 102 => ⟨S1200000x64, .f32⟩
  | 103 => ⟨S1200000x64, .f32⟩
  | 104 => ⟨S_, .f32⟩
  | 105 => ⟨S700000x64, .f32⟩
  | 106 => ⟨S_, .i32⟩
  | 107 => ⟨S1200000, .i32⟩
  | 108 => ⟨S1200000, .i1⟩
  | 109 => ⟨S_, .i32⟩
  | 110 => ⟨S1200000, .i32⟩
  | 111 => ⟨S1200000, .i32⟩
  | 112 => ⟨S1200000, .i32⟩
  | 113 => ⟨S1200000x1, .i32⟩
  | 114 => ⟨S700000x64, .f32⟩
  | 115 => ⟨S350000x128, .f32⟩
  | 116 => ⟨S350000x128, .f32⟩
  | 117 => ⟨S350000x128, .f32⟩
  | 118 => ⟨S700000x64, .f32⟩
  | 119 => ⟨S_, .i32⟩
  | 120 => ⟨S1200000, .i32⟩
  | 121 => ⟨S1200000, .i1⟩
  | 122 => ⟨S_, .i32⟩
  | 123 => ⟨S1200000, .i32⟩
  | 124 => ⟨S1200000, .i32⟩
  | 125 => ⟨S1200000, .i32⟩
  | 126 => ⟨S1200000x1, .i32⟩
  | 127 => ⟨S1200000, .f32⟩
  | _ => ⟨S2x1200000, .i32⟩

abbrev hbmTy0_1 (i : Nat) : BufTy := match i % 128 with
  | 0 => ⟨S_, .i32⟩
  | 1 => ⟨S1200000, .i32⟩
  | 2 => ⟨S1200000, .i1⟩
  | 3 => ⟨S_, .i32⟩
  | 4 => ⟨S1200000, .i32⟩
  | 5 => ⟨S1200000, .i32⟩
  | 6 => ⟨S1200000, .i32⟩
  | 7 => ⟨S1200000x1, .i32⟩
  | 8 => ⟨S1200000, .f32⟩
  | 9 => ⟨S1200000, .f32⟩
  | 10 => ⟨S_, .i32⟩
  | 11 => ⟨S1200000, .i32⟩
  | 12 => ⟨S1200000, .i1⟩
  | 13 => ⟨S_, .i32⟩
  | 14 => ⟨S1200000, .i32⟩
  | 15 => ⟨S1200000, .i32⟩
  | 16 => ⟨S1200000, .i32⟩
  | 17 => ⟨S1200000x1, .i32⟩
  | 18 => ⟨S1200000x64, .f32⟩
  | 19 => ⟨S1200000x1, .f32⟩
  | 20 => ⟨S1200000x64, .f32⟩
  | 21 => ⟨S1200000x64, .f32⟩
  | 22 => ⟨S_, .i32⟩
  | 23 => ⟨S1200000, .i32⟩
  | 24 => ⟨S1200000, .i1⟩
  | 25 => ⟨S_, .i32⟩
  | 26 => ⟨S1200000, .i32⟩
  | 27 => ⟨S1200000, .i32⟩
  | 28 => ⟨S1200000, .i32⟩
  | 29 => ⟨S1200000x1, .i32⟩
  | 30 => ⟨S700000x64, .f32⟩
  | 31 => ⟨S350000x128, .f32⟩
  | 32 => ⟨S350000x128, .f32⟩
  | 33 => ⟨S700000x64, .f32⟩
  | 34 => ⟨S400000x64, .f32⟩
  | 35 => ⟨S300000x64, .f32⟩
  | _ => ⟨S2x1200000, .i32⟩

abbrev hbmTy (i : Nat) : BufTy := match i / 128 with
  | 0 => hbmTy0_0 i
  | 1 => hbmTy0_1 i
  | _ => ⟨S2x1200000, .i32⟩

abbrev bufTy : (tb : Table) → Fin (tcTables nBuf tb) → BufTy
  | .hbm, ⟨i, _⟩ => hbmTy i
  | .local _ .vmem, ⟨0, _⟩ => ⟨S7000x128, .f32⟩
  | .local _ .vmem, ⟨1, _⟩ => ⟨S7000x128, .f32⟩
  | .local _ .vmem, ⟨2, _⟩ => ⟨S7000x128, .f32⟩
  | .local _ .vmem, ⟨3, _⟩ => ⟨S7000x128, .f32⟩
  | .local _ .vmem, ⟨4, _⟩ => ⟨S7000x128, .f32⟩
  | .local _ .vmem, ⟨5, _⟩ => ⟨S7000x128, .f32⟩
  | .local _ .vmem, ⟨6, _⟩ => ⟨S7000x128, .f32⟩
  | .local _ .vmem, ⟨7, _⟩ => ⟨S7000x128, .f32⟩
  | .local _ .vmem, ⟨8, _⟩ => ⟨S7000x128, .f32⟩
  | .local _ .vmem, ⟨9, _⟩ => ⟨S7000x128, .f32⟩
  | .local _ .vmem, ⟨10, _⟩ => ⟨S7000x128, .f32⟩
  | .local _ .vmem, ⟨11, _⟩ => ⟨S7000x128, .f32⟩
  | .local _ .vmem, ⟨12, _⟩ => ⟨S7000x128, .f32⟩
  | .local _ .vmem, ⟨13, _⟩ => ⟨S7000x128, .f32⟩
  | .local _ .vmem, ⟨14, _⟩ => ⟨S7000x128, .f32⟩
  | .local _ .vmem, ⟨15, _⟩ => ⟨S7000x128, .f32⟩
  | _, _ => ⟨S2x1200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_c_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_8 : Ref sig .tc := ⟨.hbm, 46, rfl⟩
abbrev main_v33 : Ref sig .tc := ⟨.hbm, 47, rfl⟩
abbrev main_v34 : Ref sig .tc := ⟨.hbm, 48, rfl⟩
abbrev main_c_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_c_11 : Ref sig .tc := ⟨.hbm, 60, rfl⟩
abbrev main_v44 : Ref sig .tc := ⟨.hbm, 61, rfl⟩
abbrev main_v45 : Ref sig .tc := ⟨.hbm, 62, rfl⟩
abbrev main_c_12 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_13 : Ref sig .tc := ⟨.hbm, 73, rfl⟩
abbrev main_v55 : Ref sig .tc := ⟨.hbm, 74, rfl⟩
abbrev main_v56 : Ref sig .tc := ⟨.hbm, 75, rfl⟩
abbrev main_c_14 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_15 : Ref sig .tc := ⟨.hbm, 82, rfl⟩
abbrev main_v62 : Ref sig .tc := ⟨.hbm, 83, rfl⟩
abbrev main_v63 : Ref sig .tc := ⟨.hbm, 84, rfl⟩
abbrev main_c_16 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_c_17 : Ref sig .tc := ⟨.hbm, 92, rfl⟩
abbrev main_v70 : Ref sig .tc := ⟨.hbm, 93, rfl⟩
abbrev main_v71 : Ref sig .tc := ⟨.hbm, 94, rfl⟩
abbrev main_c_18 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_19 : Ref sig .tc := ⟨.hbm, 104, rfl⟩
abbrev main_v80 : Ref sig .tc := ⟨.hbm, 105, rfl⟩
abbrev main_c_20 : Ref sig .tc := ⟨.hbm, 106, rfl⟩
abbrev main_v81 : Ref sig .tc := ⟨.hbm, 107, rfl⟩
abbrev main_v82 : Ref sig .tc := ⟨.hbm, 108, rfl⟩
abbrev main_c_21 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_c_22 : Ref sig .tc := ⟨.hbm, 119, rfl⟩
abbrev main_v92 : Ref sig .tc := ⟨.hbm, 120, rfl⟩
abbrev main_v93 : Ref sig .tc := ⟨.hbm, 121, rfl⟩
abbrev main_c_23 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_c_24 : Ref sig .tc := ⟨.hbm, 128, rfl⟩
abbrev main_v99 : Ref sig .tc := ⟨.hbm, 129, rfl⟩
abbrev main_v100 : Ref sig .tc := ⟨.hbm, 130, rfl⟩
abbrev main_c_25 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_c_26 : Ref sig .tc := ⟨.hbm, 138, rfl⟩
abbrev main_v107 : Ref sig .tc := ⟨.hbm, 139, rfl⟩
abbrev main_v108 : Ref sig .tc := ⟨.hbm, 140, rfl⟩
abbrev main_c_27 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_c_28 : Ref sig .tc := ⟨.hbm, 150, rfl⟩
abbrev main_v117 : Ref sig .tc := ⟨.hbm, 151, rfl⟩
abbrev main_v118 : Ref sig .tc := ⟨.hbm, 152, rfl⟩
abbrev main_c_29 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S7000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S7000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S7000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S7000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S7000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S400000x64_S300000x64_S700000x64_d0 : Shape.Concatenates [S400000x64, S300000x64] S700000x64 0
  bcast_S_S700000 : S_.BroadcastsInDim S700000 (![] : Fin 0 → Fin S700000.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S700000x64 : S_.BroadcastsInDim S700000x64 (![] : Fin 0 → Fin S700000x64.rank)
  shapeCasts_S700000x64_S350000x128 : S700000x64.ShapeCasts S350000x128
  inb_S7000x128_S7000x128_0_0 : ∀ a, (![0, 0] : Fin 2 → Nat) a + S7000x128.size a ≤ S7000x128.size a
  h_S7000x128 : 0 < S7000x128.numel
  shapeCasts_S7000x128_S7000x128 : S7000x128.ShapeCasts S7000x128
  shapeCasts_S350000x128_S700000x64 : S350000x128.ShapeCasts S700000x64
  slices_S700000x64_S400000x64_0_0 : S700000x64.Slices ![0, 0] S400000x64
  slices_S700000x64_S300000x64_400000_0 : S700000x64.Slices ![400000, 0] S300000x64
  scatter_S700000_S1200000x1_S1200000_n_0_0_1_wf : ScatterDims.WF S700000 S1200000x1 S1200000 [] [0] [0] 1
  gather_S700000_S1200000x1_S1200000_n_0_n_n_0_1_1_wf : GatherDims.WF S700000 S1200000x1 S1200000 [] [0] [] [0] [] 1 ![1]
  gather_S700000x64_S1200000x1_S1200000x64_1_0_n_n_0_1_164_wf : GatherDims.WF S700000x64 S1200000x1 S1200000x64 [1] [0] [] [0] [] 1 ![1, 64]
  scatter_S700000x64_S1200000x1_S1200000x64_1_0_0_1_wf : ScatterDims.WF S700000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7000x128.size a ≤ S350000x128.size a
  hwx0_0 : ∀ i : grid0.Coords, EltTy.bits .f32 = 32 ∨ (Rect.block (s := S350000x128) S7000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S7000x128.size a ≤ S350000x128.size a
  hwx0_1 : ∀ i : grid0.Coords, EltTy.bits .f32 = 32 ∨ (Rect.block (s := S350000x128) S7000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S7000x128.size a ≤ S350000x128.size a
  hwx0_2 : ∀ i : grid0.Coords, EltTy.bits .f32 = 32 ∨ (Rect.block (s := S350000x128) S7000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S7000x128.size a ≤ S350000x128.size a
  hwx1_0 : ∀ i : grid1.Coords, EltTy.bits .f32 = 32 ∨ (Rect.block (s := S350000x128) S7000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S7000x128.size a ≤ S350000x128.size a
  hwx1_1 : ∀ i : grid1.Coords, EltTy.bits .f32 = 32 ∨ (Rect.block (s := S350000x128) S7000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S7000x128.size a ≤ S350000x128.size a
  hwx1_2 : ∀ i : grid1.Coords, EltTy.bits .f32 = 32 ∨ (Rect.block (s := S350000x128) S7000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S7000x128.size a ≤ S350000x128.size a
  hwx2_0 : ∀ i : grid2.Coords, EltTy.bits .f32 = 32 ∨ (Rect.block (s := S350000x128) S7000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S7000x128.size a ≤ S350000x128.size a
  hwx2_1 : ∀ i : grid2.Coords, EltTy.bits .f32 = 32 ∨ (Rect.block (s := S350000x128) S7000x128.size (cc2_transform_1 i) (hinb2_1 i)).WholeWords (EltTy.packing .f32)

variable [Facts₀]

def scatter_S700000_S1200000x1_S1200000_n_0_0_1 : ScatterDims S700000 S1200000x1 S1200000 where
  updateWindowDims := []
  insertedWindowDims := [0]
  scatterDimsToOperandDims := [0]
  indexVectorDim := 1
  wf := scatter_S700000_S1200000x1_S1200000_n_0_0_1_wf
def gather_S700000_S1200000x1_S1200000_n_0_n_n_0_1_1 : GatherDims S700000 S1200000x1 S1200000 where
  offsetDims := []
  collapsedSliceDims := [0]
  operandBatchingDims := []
  startIndicesBatchingDims := []
  startIndexMap := [0]
  indexVectorDim := 1
  sliceSizes := ![1]
  wf := gather_S700000_S1200000x1_S1200000_n_0_n_n_0_1_1_wf
def gather_S700000x64_S1200000x1_S1200000x64_1_0_n_n_0_1_164 : GatherDims S700000x64 S1200000x1 S1200000x64 where
  offsetDims := [1]
  collapsedSliceDims := [0]
  operandBatchingDims := []
  startIndicesBatchingDims := []
  startIndexMap := [0]
  indexVectorDim := 1
  sliceSizes := ![1, 64]
  wf := gather_S700000x64_S1200000x1_S1200000x64_1_0_n_n_0_1_164_wf
def scatter_S700000x64_S1200000x1_S1200000x64_1_0_0_1 : ScatterDims S700000x64 S1200000x1 S1200000x64 where
  updateWindowDims := [1]
  insertedWindowDims := [0]
  scatterDimsToOperandDims := [0]
  indexVectorDim := 1
  wf := scatter_S700000x64_S1200000x1_S1200000x64_1_0_0_1_wf

abbrev win0_0 : Pipeline.Window sig grid0 :=
  Pipeline.Window.ofSpec (Memref.whole main_v51) S7000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S7000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S7000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v88) S7000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v89) S7000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v90) S7000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v124) S7000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v125) S7000x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S2x1200000 : Shape := ⟨2, ![2, 1200000]⟩
abbrev S400000x64 : Shape := ⟨2, ![400000, 64]⟩
abbrev S300000x64 : Shape := ⟨2, ![300000, 64]⟩
abbrev S1x1200000 : Shape := ⟨2, ![1, 1200000]⟩
abbrev S1200000 : Shape := ⟨1, ![1200000]⟩
abbrev S700000x64 : Shape := ⟨2, ![700000, 64]⟩
abbrev S_ : Shape := ⟨0, ![]⟩
abbrev S700000 : Shape := ⟨1, ![700000]⟩
abbrev S1200000x1 : Shape := ⟨2, ![1200000, 1]⟩
abbrev S1200000x64 : Shape := ⟨2, ![1200000, 64]⟩

abbrev nBuf : Space → Nat
  | .hbm => 199
  | .vmem => 0
  | .smem => 0
  | _ => 0

abbrev hbmTy0_0 (i : Nat) : BufTy := match i % 128 with
  | 0 => ⟨S2x1200000, .i32⟩
  | 1 => ⟨S400000x64, .f32⟩
  | 2 => ⟨S300000x64, .f32⟩
  | 3 => ⟨S1x1200000, .i32⟩
  | 4 => ⟨S1200000, .i32⟩
  | 5 => ⟨S1x1200000, .i32⟩
  | 6 => ⟨S1200000, .i32⟩
  | 7 => ⟨S700000x64, .f32⟩
  | 8 => ⟨S_, .f32⟩
  | 9 => ⟨S700000, .f32⟩
  | 10 => ⟨S_, .i32⟩
  | 11 => ⟨S1200000, .i32⟩
  | 12 => ⟨S1200000, .i1⟩
  | 13 => ⟨S_, .i32⟩
  | 14 => ⟨S1200000, .i32⟩
  | 15 => ⟨S1200000, .i32⟩
  | 16 => ⟨S1200000, .i32⟩
  | 17 => ⟨S1200000x1, .i32⟩
  | 18 => ⟨S_, .f32⟩
  | 19 => ⟨S1200000, .f32⟩
  | 20 => ⟨S700000, .f32⟩
  | 21 => ⟨S_, .f32⟩
  | 22 => ⟨S700000, .f32⟩
  | 23 => ⟨S700000, .f32⟩
  | 24 => ⟨S_, .f32⟩
  | 25 => ⟨S700000, .f32⟩
  | 26 => ⟨S700000, .f32⟩
  | 27 => ⟨S_, .i32⟩
  | 28 => ⟨S1200000, .i32⟩
  | 29 => ⟨S1200000, .i1⟩
  | 30 => ⟨S_, .i32⟩
  | 31 => ⟨S1200000, .i32⟩
  | 32 => ⟨S1200000, .i32⟩
  | 33 => ⟨S1200000, .i32⟩
  | 34 => ⟨S1200000x1, .i32⟩
  | 35 => ⟨S1200000, .f32⟩
  | 36 => ⟨S_, .i32⟩
  | 37 => ⟨S1200000, .i32⟩
  | 38 => ⟨S1200000, .i1⟩
  | 39 => ⟨S_, .i32⟩
  | 40 => ⟨S1200000, .i32⟩
  | 41 => ⟨S1200000, .i32⟩
  | 42 => ⟨S1200000, .i32⟩
  | 43 => ⟨S1200000x1, .i32⟩
  | 44 => ⟨S1200000, .f32⟩
  | 45 => ⟨S1200000, .f32⟩
  | 46 => ⟨S_, .i32⟩
  | 47 => ⟨S1200000, .i32⟩
  | 48 => ⟨S1200000, .i1⟩
  | 49 => ⟨S_, .i32⟩
  | 50 => ⟨S1200000, .i32⟩
  | 51 => ⟨S1200000, .i32⟩
  | 52 => ⟨S1200000, .i32⟩
  | 53 => ⟨S1200000x1, .i32⟩
  | 54 => ⟨S1200000x64, .f32⟩
  | 55 => ⟨S1200000x1, .f32⟩
  | 56 => ⟨S1200000x64, .f32⟩
  | 57 => ⟨S1200000x64, .f32⟩
  | 58 => ⟨S_, .f32⟩
  | 59 => ⟨S700000x64, .f32⟩
  | 60 => ⟨S_, .i32⟩
  | 61 => ⟨S1200000, .i32⟩
  | 62 => ⟨S1200000, .i1⟩
  | 63 => ⟨S_, .i32⟩
  | 64 => ⟨S1200000, .i32⟩
  | 65 => ⟨S1200000, .i32⟩
  | 66 => ⟨S1200000, .i32⟩
  | 67 => ⟨S1200000x1, .i32⟩
  | 68 => ⟨S700000x64, .f32⟩
  | 69 => ⟨S700000x64, .f32⟩
  | 70 => ⟨S_, .f32⟩
  | 71 => ⟨S700000, .f32⟩
  | 72 => ⟨S_, .i32⟩
  | 73 => ⟨S1200000, .i32⟩
  | 74 => ⟨S1200000, .i1⟩
  | 75 => ⟨S_, .i32⟩
  | 76 => ⟨S1200000, .i32⟩
  | 77 => ⟨S1200000, .i32⟩
  | 78 => ⟨S1200000, .i32⟩
  | 79 => ⟨S1200000x1, .i32⟩
  | 80 => ⟨S_, .f32⟩
  | 81 => ⟨S1200000, .f32⟩
  | 82 => ⟨S700000, .f32⟩
  | 83 => ⟨S_, .f32⟩
  | 84 => ⟨S700000, .f32⟩
  | 85 => ⟨S700000, .f32⟩
  | 86 => ⟨S_, .f32⟩
  | 87 => ⟨S700000, .f32⟩
  | 88 => ⟨S700000, .f32⟩
  | 89 => ⟨S_, .i32⟩
  | 90 => ⟨S1200000, .i32⟩
  | 91 => ⟨S1200000, .i1⟩
  | 92 => ⟨S_, .i32⟩
  | 93 => ⟨S1200000, .i32⟩
  | 94 => ⟨S1200000, .i32⟩
  | 95 => ⟨S1200000, .i32⟩
  | 96 => ⟨S1200000x1, .i32⟩
  | 97 => ⟨S1200000, .f32⟩
  | 98 => ⟨S_, .i32⟩
  | 99 => ⟨S1200000, .i32⟩
  | 100 => ⟨S1200000, .i1⟩
  | 101 => ⟨S_, .i32⟩
  | 102 => ⟨S1200000, .i32⟩
  | 103 => ⟨S1200000, .i32⟩
  | 104 => ⟨S1200000, .i32⟩
  | 105 => ⟨S1200000x1, .i32⟩
  | 106 => ⟨S1200000, .f32⟩
  | 107 => ⟨S1200000, .f32⟩
  | 108 => ⟨S_, .i32⟩
  | 109 => ⟨S1200000, .i32⟩
  | 110 => ⟨S1200000, .i1⟩
  | 111 => ⟨S_, .i32⟩
  | 112 => ⟨S1200000, .i32⟩
  | 113 => ⟨S1200000, .i32⟩
  | 114 => ⟨S1200000, .i32⟩
  | 115 => ⟨S1200000x1, .i32⟩
  | 116 => ⟨S1200000x64, .f32⟩
  | 117 => ⟨S1200000x1, .f32⟩
  | 118 => ⟨S1200000x64, .f32⟩
  | 119 => ⟨S1200000x64, .f32⟩
  | 120 => ⟨S_, .f32⟩
  | 121 => ⟨S700000x64, .f32⟩
  | 122 => ⟨S_, .i32⟩
  | 123 => ⟨S1200000, .i32⟩
  | 124 => ⟨S1200000, .i1⟩
  | 125 => ⟨S_, .i32⟩
  | 126 => ⟨S1200000, .i32⟩
  | 127 => ⟨S1200000, .i32⟩
  | _ => ⟨S2x1200000, .i32⟩

abbrev hbmTy0_1 (i : Nat) : BufTy := match i % 128 with
  | 0 => ⟨S1200000, .i32⟩
  | 1 => ⟨S1200000x1, .i32⟩
  | 2 => ⟨S700000x64, .f32⟩
  | 3 => ⟨S700000x64, .f32⟩
  | 4 => ⟨S_, .f32⟩
  | 5 => ⟨S700000, .f32⟩
  | 6 => ⟨S_, .i32⟩
  | 7 => ⟨S1200000, .i32⟩
  | 8 => ⟨S1200000, .i1⟩
  | 9 => ⟨S_, .i32⟩
  | 10 => ⟨S1200000, .i32⟩
  | 11 => ⟨S1200000, .i32⟩
  | 12 => ⟨S1200000, .i32⟩
  | 13 => ⟨S1200000x1, .i32⟩
  | 14 => ⟨S_, .f32⟩
  | 15 => ⟨S1200000, .f32⟩
  | 16 => ⟨S700000, .f32⟩
  | 17 => ⟨S_, .f32⟩
  | 18 => ⟨S700000, .f32⟩
  | 19 => ⟨S700000, .f32⟩
  | 20 => ⟨S_, .f32⟩
  | 21 => ⟨S700000, .f32⟩
  | 22 => ⟨S700000, .f32⟩
  | 23 => ⟨S_, .i32⟩
  | 24 => ⟨S1200000, .i32⟩
  | 25 => ⟨S1200000, .i1⟩
  | 26 => ⟨S_, .i32⟩
  | 27 => ⟨S1200000, .i32⟩
  | 28 => ⟨S1200000, .i32⟩
  | 29 => ⟨S1200000, .i32⟩
  | 30 => ⟨S1200000x1, .i32⟩
  | 31 => ⟨S1200000, .f32⟩
  | 32 => ⟨S_, .i32⟩
  | 33 => ⟨S1200000, .i32⟩
  | 34 => ⟨S1200000, .i1⟩
  | 35 => ⟨S_, .i32⟩
  | 36 => ⟨S1200000, .i32⟩
  | 37 => ⟨S1200000, .i32⟩
  | 38 => ⟨S1200000, .i32⟩
  | 39 => ⟨S1200000x1, .i32⟩
  | 40 => ⟨S1200000, .f32⟩
  | 41 => ⟨S1200000, .f32⟩
  | 42 => ⟨S_, .i32⟩
  | 43 => ⟨S1200000, .i32⟩
  | 44 => ⟨S1200000, .i1⟩
  | 45 => ⟨S_, .i32⟩
  | 46 => ⟨S1200000, .i32⟩
  | 47 => ⟨S1200000, .i32⟩
  | 48 => ⟨S1200000, .i32⟩
  | 49 => ⟨S1200000x1, .i32⟩
  | 50 => ⟨S1200000x64, .f32⟩
  | 51 => ⟨S1200000x1, .f32⟩
  | 52 => ⟨S1200000x64, .f32⟩
  | 53 => ⟨S1200000x64, .f32⟩
  | 54 => ⟨S_, .f32⟩
  | 55 => ⟨S700000x64, .f32⟩
  | 56 => ⟨S_, .i32⟩
  | 57 => ⟨S1200000, .i32⟩
  | 58 => ⟨S1200000, .i1⟩
  | 59 => ⟨S_, .i32⟩
  | 60 => ⟨S1200000, .i32⟩
  | 61 => ⟨S1200000, .i32⟩
  | 62 => ⟨S1200000, .i32⟩
  | 63 => ⟨S1200000x1, .i32⟩
  | 64 => ⟨S700000x64, .f32⟩
  | 65 => ⟨S700000x64, .f32⟩
  | 66 => ⟨S_, .f32⟩
  | 67 => ⟨S700000x64, .f32⟩
  | 68 => ⟨S700000x64, .f32⟩
  | 69 => ⟨S400000x64, .f32⟩
  | 70 => ⟨S300000x64, .f32⟩
  | _ => ⟨S2x1200000, .i32⟩

abbrev hbmTy (i : Nat) : BufTy := match i / 128 with
  | 0 => hbmTy0_0 i
  | 1 => hbmTy0_1 i
  | _ => ⟨S2x1200000, .i32⟩

abbrev bufTy : (tb : Table) → Fin (tcTables nBuf tb) → BufTy
  | .hbm, ⟨i, _⟩ => hbmTy i
  | _, _ => ⟨S2x1200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_c_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_8 : Ref sig .tc := ⟨.hbm, 46, rfl⟩
abbrev main_v33 : Ref sig .tc := ⟨.hbm, 47, rfl⟩
abbrev main_v34 : Ref sig .tc := ⟨.hbm, 48, rfl⟩
abbrev main_c_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_c_11 : Ref sig .tc := ⟨.hbm, 60, rfl⟩
abbrev main_v44 : Ref sig .tc := ⟨.hbm, 61, rfl⟩
abbrev main_v45 : Ref sig .tc := ⟨.hbm, 62, rfl⟩
abbrev main_c_12 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_13 : Ref sig .tc := ⟨.hbm, 70, rfl⟩
abbrev main_v52 : Ref sig .tc := ⟨.hbm, 71, rfl⟩
abbrev main_c_14 : Ref sig .tc := ⟨.hbm, 72, rfl⟩
abbrev main_v53 : Ref sig .tc := ⟨.hbm, 73, rfl⟩
abbrev main_v54 : Ref sig .tc := ⟨.hbm, 74, rfl⟩
abbrev main_c_15 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_16 : Ref sig .tc := ⟨.hbm, 80, rfl⟩
abbrev main_v59 : Ref sig .tc := ⟨.hbm, 81, rfl⟩
abbrev main_v60 : Ref sig .tc := ⟨.hbm, 82, rfl⟩
abbrev main_cst_17 : Ref sig .tc := ⟨.hbm, 83, rfl⟩
abbrev main_v61 : Ref sig .tc := ⟨.hbm, 84, rfl⟩
abbrev main_v62 : Ref sig .tc := ⟨.hbm, 85, rfl⟩
abbrev main_cst_18 : Ref sig .tc := ⟨.hbm, 86, rfl⟩
abbrev main_v63 : Ref sig .tc := ⟨.hbm, 87, rfl⟩
abbrev main_v64 : Ref sig .tc := ⟨.hbm, 88, rfl⟩
abbrev main_c_19 : Ref sig .tc := ⟨.hbm, 89, rfl⟩
abbrev main_v65 : Ref sig .tc := ⟨.hbm, 90, rfl⟩
abbrev main_v66 : Ref sig .tc := ⟨.hbm, 91, rfl⟩
abbrev main_c_20 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_21 : Ref sig .tc := ⟨.hbm, 98, rfl⟩
abbrev main_v72 : Ref sig .tc := ⟨.hbm, 99, rfl⟩
abbrev main_v73 : Ref sig .tc := ⟨.hbm, 100, rfl⟩
abbrev main_c_22 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c_23 : Ref sig .tc := ⟨.hbm, 108, rfl⟩
abbrev main_v80 : Ref sig .tc := ⟨.hbm, 109, rfl⟩
abbrev main_v81 : Ref sig .tc := ⟨.hbm, 110, rfl⟩
abbrev main_c_24 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_25 : Ref sig .tc := ⟨.hbm, 120, rfl⟩
abbrev main_v90 : Ref sig .tc := ⟨.hbm, 121, rfl⟩
abbrev main_c_26 : Ref sig .tc := ⟨.hbm, 122, rfl⟩
abbrev main_v91 : Ref sig .tc := ⟨.hbm, 123, rfl⟩
abbrev main_v92 : Ref sig .tc := ⟨.hbm, 124, rfl⟩
abbrev main_c_27 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_28 : Ref sig .tc := ⟨.hbm, 132, rfl⟩
abbrev main_v99 : Ref sig .tc := ⟨.hbm, 133, rfl⟩
abbrev main_c_29 : Ref sig .tc := ⟨.hbm, 134, rfl⟩
abbrev main_v100 : Ref sig .tc := ⟨.hbm, 135, rfl⟩
abbrev main_v101 : Ref sig .tc := ⟨.hbm, 136, rfl⟩
abbrev main_c_30 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_31 : Ref sig .tc := ⟨.hbm, 142, rfl⟩
abbrev main_v106 : Ref sig .tc := ⟨.hbm, 143, rfl⟩
abbrev main_v107 : Ref sig .tc := ⟨.hbm, 144, rfl⟩
abbrev main_cst_32 : Ref sig .tc := ⟨.hbm, 145, rfl⟩
abbrev main_v108 : Ref sig .tc := ⟨.hbm, 146, rfl⟩
abbrev main_v109 : Ref sig .tc := ⟨.hbm, 147, rfl⟩
abbrev main_cst_33 : Ref sig .tc := ⟨.hbm, 148, rfl⟩
abbrev main_v110 : Ref sig .tc := ⟨.hbm, 149, rfl⟩
abbrev main_v111 : Ref sig .tc := ⟨.hbm, 150, rfl⟩
abbrev main_c_34 : Ref sig .tc := ⟨.hbm, 151, rfl⟩
abbrev main_v112 : Ref sig .tc := ⟨.hbm, 152, rfl⟩
abbrev main_v113 : Ref sig .tc := ⟨.hbm, 153, rfl⟩
abbrev main_c_35 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_c_36 : Ref sig .tc := ⟨.hbm, 160, rfl⟩
abbrev main_v119 : Ref sig .tc := ⟨.hbm, 161, rfl⟩
abbrev main_v120 : Ref sig .tc := ⟨.hbm, 162, rfl⟩
abbrev main_c_37 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_c_38 : Ref sig .tc := ⟨.hbm, 170, rfl⟩
abbrev main_v127 : Ref sig .tc := ⟨.hbm, 171, rfl⟩
abbrev main_v128 : Ref sig .tc := ⟨.hbm, 172, rfl⟩
abbrev main_c_39 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_40 : Ref sig .tc := ⟨.hbm, 182, rfl⟩
abbrev main_v137 : Ref sig .tc := ⟨.hbm, 183, rfl⟩
abbrev main_c_41 : Ref sig .tc := ⟨.hbm, 184, rfl⟩
abbrev main_v138 : Ref sig .tc := ⟨.hbm, 185, rfl⟩
abbrev main_v139 : Ref sig .tc := ⟨.hbm, 186, rfl⟩
abbrev main_c_42 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_cst_43 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S400000x64_S300000x64_S700000x64_d0 : Shape.Concatenates [S400000x64, S300000x64] S700000x64 0
  bcast_S_S700000 : S_.BroadcastsInDim S700000 (![] : Fin 0 → Fin S700000.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S700000x64 : S_.BroadcastsInDim S700000x64 (![] : Fin 0 → Fin S700000x64.rank)
  slices_S700000x64_S400000x64_0_0 : S700000x64.Slices ![0, 0] S400000x64
  slices_S700000x64_S300000x64_400000_0 : S700000x64.Slices ![400000, 0] S300000x64
  scatter_S700000_S1200000x1_S1200000_n_0_0_1_wf : ScatterDims.WF S700000 S1200000x1 S1200000 [] [0] [0] 1
  gather_S700000_S1200000x1_S1200000_n_0_n_n_0_1_1_wf : GatherDims.WF S700000 S1200000x1 S1200000 [] [0] [] [0] [] 1 ![1]
  gather_S700000x64_S1200000x1_S1200000x64_1_0_n_n_0_1_164_wf : GatherDims.WF S700000x64 S1200000x1 S1200000x64 [1] [0] [] [0] [] 1 ![1, 64]
  scatter_S700000x64_S1200000x1_S1200000x64_1_0_0_1_wf : ScatterDims.WF S700000x64 S1200000x1 S1200000x64 [1] [0] [0] 1

variable [Facts₀]

def scatter_S700000_S1200000x1_S1200000_n_0_0_1 : ScatterDims S700000 S1200000x1 S1200000 where
  updateWindowDims := []
  insertedWindowDims := [0]
  scatterDimsToOperandDims := [0]
  indexVectorDim := 1
  wf := scatter_S700000_S1200000x1_S1200000_n_0_0_1_wf
def gather_S700000_S1200000x1_S1200000_n_0_n_n_0_1_1 : GatherDims S700000 S1200000x1 S1200000 where
  offsetDims := []
  collapsedSliceDims := [0]
  operandBatchingDims := []
  startIndicesBatchingDims := []
  startIndexMap := [0]
  indexVectorDim := 1
  sliceSizes := ![1]
  wf := gather_S700000_S1200000x1_S1200000_n_0_n_n_0_1_1_wf
def gather_S700000x64_S1200000x1_S1200000x64_1_0_n_n_0_1_164 : GatherDims S700000x64 S1200000x1 S1200000x64 where
  offsetDims := [1]
  collapsedSliceDims := [0]
  operandBatchingDims := []
  startIndicesBatchingDims := []
  startIndexMap := [0]
  indexVectorDim := 1
  sliceSizes := ![1, 64]
  wf := gather_S700000x64_S1200000x1_S1200000x64_1_0_n_n_0_1_164_wf
def scatter_S700000x64_S1200000x1_S1200000x64_1_0_0_1 : ScatterDims S700000x64 S1200000x1 S1200000x64 where
  updateWindowDims := [1]
  insertedWindowDims := [0]
  scatterDimsToOperandDims := [0]
  indexVectorDim := 1
  wf := scatter_S700000x64_S1200000x1_S1200000x64_1_0_0_1_wf

class Facts : Prop extends Facts₀ where

variable [Facts]
-- ==== Proof.KernelRun.lean ====
/-
  The idealized kernel program's run, with its two results kept.

  The program is seven segments: a stretch of host operations, the first accumulate call, a stretch, the second
  accumulate call, a stretch, the scaling call, and the closing reshape and two slices.  The buffer contents at the
  segment boundaries form a chain `W0 … W7` from the launch memory.  Every weakly fair execution terminates, and in the
  final memory every buffer that lives for the whole program holds what the last link `W7` gives it; the frame keeps of
  this only the three arguments, here the two result buffers are kept as well.
-/
import proofs.«154785_j7868380086591_2_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two results end at the last link of the chain of
    boundary contents, and the arguments end as launched. -/
theorem run : θ_run defs (onTc (τ := τ) (main (F := F))) ⟨m, fun _ => 0, ρ⟩ (fun r => ∀ c : Dev nD,
      r.2.mem ((c.tc : Thread nD τ).loc main_v127) = W7 m ρ c (Proc.devRef .tc main_v127)
      ∧ r.2.mem ((c.tc : Thread nD τ).loc main_v128) = W7 m ρ c (Proc.devRef .tc main_v128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v127 (by decide)),
       h c _ (mem_uc main_v128 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.KernelIdeal.Fold

end
-- ==== Proof.Spec.lean ====
/-
  The mathematics of degree-normalised graph propagation, as named functions of whole arrays.

  An edge list gives, per edge, a source and a destination node number (a negative number is counted from the end: it is
  shifted by the number of nodes, 700000).  A node's degree is the number of edges it is the source of, floored at one;
  an edge's weight is the product of the inverse square roots of the degrees of its two endpoints.  One propagation
  step sends, along every edge, the source node's row times the edge's weight, and adds up at every node what arrives
  there (`spreadInto`, from a given starting array).  The program's answer is the mean of the node table and its first
  three propagation steps.

  Two ways of forming that mean are spelt here.  `viaViews` forms the running sums on a re-arranged copy of the arrays
  (350000 rows of 128 instead of 700000 rows of 64), lets the third step accumulate straight into the running sum, and
  multiplies by one quarter on the re-arranged copy.  `plain` adds the three steps to the table one after the other and
  divides by four.  `Proof/SpecEq.lean` shows them equal over the extended reals.
-/
import proofs.«154785_j7868380086591_2_alg».proof.KernelIdeal
import proofs.«154785_j7868380086591_2_alg».proof.Proof.Gen.KernelIdeal

noncomputable section

namespace Cert.KernelIdeal.Spec

open Cert.KernelIdeal Cert.KernelIdeal.Facts₀ Cert.KernelIdeal.Facts
open Idealize.ShloMosaic

variable {F : FTy → Type} [FloatOps F]

/-- The source node numbers: row 0 of the edge list. -/
def sources (e : IVec S2x1200000 32) : IVec S1200000 32 :=
  shapeCast _ (extractStridedSlice S1x1200000 ![0, 0] e slices_S2x1200000_S1x1200000_0_0) shapeCasts_S1x1200000_S1200000

/-- The destination node numbers: row 1 of the edge list. -/
def targets (e : IVec S2x1200000 32) : IVec S1200000 32 :=
  shapeCast _ (extractStridedSlice S1x1200000 ![1, 0] e slices_S2x1200000_S1x1200000_1_0) shapeCasts_S1x1200000_S1200000

/-- Node numbers as a one-column table of row numbers: a negative number is shifted by the number of nodes. -/
def rowNumbers (r : IVec S1200000 32) : IVec S1200000x1 32 :=
  broadcastInDim S1200000x1 ![0] bcast_S1200000_S1200000x1_0
    (select (cmpi .slt r (broadcastInDim S1200000 ![] bcast_S_S1200000 (constantI S_ 32 0#32)))
      (addi r (broadcastInDim S1200000 ![] bcast_S_S1200000 (constantI S_ 32 700000#32))) r)

/-- The node table: the user rows above the product rows. -/
def nodeTable (u : FVec F S400000x64 .f32) (p : FVec F S300000x64 .f32) : FVec F S700000x64 .f32 :=
  concatenate S700000x64 0 [⟨S400000x64, u⟩, ⟨S300000x64, p⟩] concatenates_S400000x64_S300000x64_S700000x64_d0

/-- The all-zero node table. -/
def noRows : FVec F S700000x64 .f32 := broadcastInDim S700000x64 ![] bcast_S_S700000x64 (constant S_ .f32 0x00000000#32)

/-- Per node: (the number of edges it is the source of, at least one) to the power minus one half. -/
def invSqrtDegree (r : IVec S1200000 32) : FVec F S700000 .f32 :=
  Host.powf
    (maximumf
      (Host.scatterAdd scatter_S700000_S1200000x1_S1200000_n_0_0_1
        (broadcastInDim S700000 ![] bcast_S_S700000 (constant S_ .f32 0x00000000#32)) (rowNumbers r)
        (broadcastInDim S1200000 ![] bcast_S_S1200000 (constant S_ .f32 0x3F800000#32)))
      (broadcastInDim S700000 ![] bcast_S_S700000 (constant S_ .f32 0x3F800000#32)))
    (broadcastInDim S700000 ![] bcast_S_S700000 (constant S_ .f32 0xBF000000#32))

/-- Per edge and column: the product of the two endpoints' inverse square-root degrees `d`. -/
def edgeWeights (r c : IVec S1200000 32) (d : FVec F S700000 .f32) : FVec F S1200000x64 .f32 :=
  broadcastInDim S1200000x64 ![0, 1] bcast_S1200000x1_S1200000x64_0_1
    (broadcastInDim S1200000x1 ![0] bcast_S1200000_S1200000x1_0
      (mulf (Host.gather gather_S700000_S1200000x1_S1200000_n_0_n_n_0_1_1 d (rowNumbers r))
        (Host.gather gather_S700000_S1200000x1_S1200000_n_0_n_n_0_1_1 d (rowNumbers c))))

/-- One propagation step accumulated into `start`: along every edge the source's row of `x` times the edge's weight,
    added up at the edge's destination. -/
def spreadInto (r c : IVec S1200000 32) (d : FVec F S700000 .f32) (start x : FVec F S700000x64 .f32) :
    FVec F S700000x64 .f32 :=
  Host.scatterAdd scatter_S700000x64_S1200000x1_S1200000x64_1_0_0_1 start (rowNumbers c)
    (mulf (Host.gather gather_S700000x64_S1200000x1_S1200000x64_1_0_n_n_0_1_164 x (rowNumbers r)) (edgeWeights r c d))

/-- The same entries laid out as 350000 rows of 128. -/
def wide (x : FVec F S700000x64 .f32) : FVec F S350000x128 .f32 := shapeCast _ x shapeCasts_S700000x64_S350000x128
/-- And back as 700000 rows of 64. -/
def narrow (y : FVec F S350000x128 .f32) : FVec F S700000x64 .f32 := shapeCast _ y shapeCasts_S350000x128_S700000x64

/-- The first propagation step of the node table `x`. -/
def step1 (r c : IVec S1200000 32) (d : FVec F S700000 .f32) (x : FVec F S700000x64 .f32) : FVec F S700000x64 .f32 :=
  spreadInto r c d noRows x
/-- The second. -/
def step2 (r c : IVec S1200000 32) (d : FVec F S700000 .f32) (x : FVec F S700000x64 .f32) : FVec F S700000x64 .f32 :=
  spreadInto r c d noRows (step1 r c d x)

/-- The table plus its first step, added on the wide layout. -/
def sum1 (r c : IVec S1200000 32) (d : FVec F S700000 .f32) (x : FVec F S700000x64 .f32) : FVec F S700000x64 .f32 :=
  narrow (addf (wide x) (wide (step1 r c d x)))
/-- Plus the second step, added on the wide layout. -/
def sum2 (r c : IVec S1200000 32) (d : FVec F S700000 .f32) (x : FVec F S700000x64 .f32) : FVec F S700000x64 .f32 :=
  narrow (addf (wide (sum1 r c d x)) (wide (step2 r c d x)))
/-- The third step accumulated straight into that sum, then one quarter of it taken on the wide layout. -/
def viaViews (r c : IVec S1200000 32) (d : FVec F S700000 .f32) (x : FVec F S700000x64 .f32) : FVec F S700000x64 .f32 :=
  narrow (mulf (wide (spreadInto r c d (sum2 r c d x) (step2 r c d x)))
    (broadcast S350000x128 (Scalar.ofBits (F := F) .f32 0x3E800000#32)))

/-- The table plus its three steps, one after the other, divided by four. -/
def plain (r c : IVec S1200000 32) (d : FVec F S700000 .f32) (x : FVec F S700000x64 .f32) : FVec F S700000x64 .f32 :=
  Host.divf
    (addf (addf (addf x (step1 r c d x)) (step2 r c d x)) (spreadInto r c d noRows (step2 r c d x)))
    (broadcastInDim S700000x64 ![] bcast_S_S700000x64 (constant S_ .f32 0x40800000#32))

/-- The answer's user part: the first 400000 rows. -/
def userRows (y : FVec F S700000x64 .f32) : FVec F S400000x64 .f32 :=
  extractStridedSlice S400000x64 ![0, 0] y slices_S700000x64_S400000x64_0_0
/-- The answer's product part: the remaining 300000 rows. -/
def productRows (y : FVec F S700000x64 .f32) : FVec F S300000x64 .f32 :=
  extractStridedSlice S300000x64 ![400000, 0] y slices_S700000x64_S300000x64_400000_0

end Cert.KernelIdeal.Spec

end
-- ==== Proof.Sum0.lean ====
/-
  What the first accumulate call leaves in its output array, for any contents `V` of the buffers at its entry.

  The call walks fifty grid points; at point `t` it fetches rows `7000·t … 7000·t + 6999` of each of its two input arrays
  (all 128 columns), adds the two blocks entry by entry, and writes the sum back to the same rows of the output array.
  The three index maps agree at every point, so the block written back at `t` is the block of the entrywise sum of the
  two input arrays; and row `r` lies in the block of point `r / 7000`, so the fifty blocks cover the output array.  Hence
  the output array ends as the entrywise sum of the two input arrays.
-/
import proofs.«154785_j7868380086591_2_alg».proof.Proof.Gen.KernelIdeal.Frame
import Idealize.ShloMosaic.Lib.Pipeline.Value

set_option maxRecDepth 16384

noncomputable section

namespace Cert.KernelIdeal.Sum0

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The body's one load rectangle and one store rectangle start at the block's origin. -/
theorem origin : (![0, 0] : Fin 2 → Nat) = fun _ => 0 := funext fun a => by fin_cases a <;> rfl

/-- The value the body stores is the entrywise sum of the two blocks it loaded. -/
theorem stored_eq (x0 x1 : Vec F S7000x128 .f32) : k0_pay1 x0 x1 = addf x0 x1 := by
  unfold k0_pay1
  simp only [shapeCast_self]

/-- The three index maps at a grid point: both inputs move with the output, whose block row is the point's number and
    whose block column is zero. -/
theorem index_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val
    ∧ win0_2.index t (1 : Fin 2) = 0 :=
  (by decide +kernel : ∀ t : Fin grid0.N, _)

/-- What point `t` writes back is block `t` of the entrywise sum of the two input arrays as the call finds them. -/
theorem written_back (c : Dev nD) (t : Fin cfg0.N) :
    (dat0 V c).flushed 2 t
      = ((cfg0.win 2).blk t).view.read (Elt F) (addf (V c main_v51 : FVec F S350000x128 .f32) (V c main_v52 : FVec F S350000x128 .f32)) := by
  show (cfg0.win 2).cut (grid0.coords t) ((dat0 V c).after 2 t) = _
  rw [after0_2]
  unfold out0_2
  rw [View.canon_unit_zero origin]
  simp only [View.ld_unit_zero (S := S7000x128) origin]
  rw [stored_eq]
  obtain ⟨e0, e1, e2, e3, e4, e5⟩ := index_facts t
  funext j
  show FloatOps.addf (V c main_v51 (((cfg0.win 0).blk t).view.emb j)) (V c main_v52 (((cfg0.win 1).blk t).view.emb j))
    = FloatOps.addf (V c main_v51 (((cfg0.win 2).blk t).view.emb j)) (V c main_v52 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 7000 + 1 * (j 0).val = win0_2.index t (0 : Fin 2) * 7000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 7000 + 1 * (j 0).val = win0_2.index t (0 : Fin 2) * 7000 + 1 * (j 0).val; omega
    | ⟨1, _⟩ => show win0_1.index t (1 : Fin 2) * 128 + 1 * (j 1).val = win0_2.index t (1 : Fin 2) * 128 + 1 * (j 1).val; omega
  rw [h0, h1]

/-- An index of the output array lies in point `t`'s block iff each coordinate lies in the block's range on its axis. -/
theorem mem_block (t : Fin cfg0.N) (i : S350000x128.Idx) :
    i ∈ ((cfg0.win 2).blk t).view.set ↔ ∀ a : Fin 2, win0_2.index t a * S7000x128.size a ≤ (i a).val
      ∧ (i a).val < win0_2.index t a * S7000x128.size a + S7000x128.size a := by
  show i ∈ ((View.whole main_v53).slice (win0_2.rect t)).set ↔ _
  rw [View.set_slice_whole, Rect.mem_set_unit]
  exact Iff.rfl

/-- Row `r` lies in the block of point `r / 7000`: the blocks written back cover the output array. -/
theorem covered (i : S350000x128.Idx) :
    ∃ t : Fin cfg0.N, (cfg0.win 2).flush t = true ∧ i ∈ ((cfg0.win 2).blk t).view.set := by
  have hi0 : (i 0).val < 350000 := (i 0).isLt
  have hi1 : (i 1).val < 128 := (i 1).isLt
  have hN : cfg0.N = 50 := N_0
  let t : Fin cfg0.N := ⟨(i 0).val / 7000, by rw [hN]; omega⟩
  have ht : t.val = (i 0).val / 7000 := rfl
  obtain ⟨e0, e1, e2, e3, e4, e5⟩ := index_facts t
  refine ⟨t, flush0_2 t, ?_⟩
  rw [mem_block]
  intro a
  match a with
  | ⟨0, _⟩ => show win0_2.index t (0 : Fin 2) * 7000 ≤ (i 0).val ∧ (i 0).val < win0_2.index t (0 : Fin 2) * 7000 + 7000; omega
  | ⟨1, _⟩ => show win0_2.index t (1 : Fin 2) * 128 ≤ (i 1).val ∧ (i 1).val < win0_2.index t (1 : Fin 2) * 128 + 128; omega

/-- THE OUTPUT ARRAY after the call: the entrywise sum of the two input arrays as the call finds them. -/
theorem output (c : Dev nD) :
    (dat0 V c).arrAt 2 cfg0.N = addf (V c main_v51 : FVec F S350000x128 .f32) (V c main_v52 : FVec F S350000x128 .f32) :=
  (dat0 V c).arrAt_eq_of_cover 2 _ (fun t _ => written_back V c t) covered

end Cert.KernelIdeal.Sum0

end
-- ==== Proof.Sum1.lean ====
/-
  What the second accumulate call leaves in its output array, for any contents `V` of the buffers at its entry.

  The call walks fifty grid points; at point `t` it fetches rows `7000·t … 7000·t + 6999` of each of its two input arrays
  (all 128 columns), adds the two blocks entry by entry, and writes the sum back to the same rows of the output array.
  The three index maps agree at every point, so the block written back at `t` is the block of the entrywise sum of the
  two input arrays; and row `r` lies in the block of point `r / 7000`, so the fifty blocks cover the output array.  Hence
  the output array ends as the entrywise sum of the two input arrays.
-/
import proofs.«154785_j7868380086591_2_alg».proof.Proof.Gen.KernelIdeal.Frame
import Idealize.ShloMosaic.Lib.Pipeline.Value

set_option maxRecDepth 16384

noncomputable section

namespace Cert.KernelIdeal.Sum1

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The body's one load rectangle and one store rectangle start at the block's origin. -/
theorem origin : (![0, 0] : Fin 2 → Nat) = fun _ => 0 := funext fun a => by fin_cases a <;> rfl

/-- The value the body stores is the entrywise sum of the two blocks it loaded. -/
theorem stored_eq (x0 x1 : Vec F S7000x128 .f32) : k1_pay1 x0 x1 = addf x0 x1 := by
  unfold k1_pay1
  simp only [shapeCast_self]

/-- The three index maps at a grid point: both inputs move with the output, whose block row is the point's number and
    whose block column is zero. -/
theorem index_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) = t.val
    ∧ win1_2.index t (1 : Fin 2) = 0 :=
  (by decide +kernel : ∀ t : Fin grid1.N, _)

/-- What point `t` writes back is block `t` of the entrywise sum of the two input arrays as the call finds them. -/
theorem written_back (c : Dev nD) (t : Fin cfg1.N) :
    (dat1 V c).flushed 2 t
      = ((cfg1.win 2).blk t).view.read (Elt F) (addf (V c main_v88 : FVec F S350000x128 .f32) (V c main_v89 : FVec F S350000x128 .f32)) := by
  show (cfg1.win 2).cut (grid1.coords t) ((dat1 V c).after 2 t) = _
  rw [after1_2]
  unfold out1_2
  rw [View.canon_unit_zero origin]
  simp only [View.ld_unit_zero (S := S7000x128) origin]
  rw [stored_eq]
  obtain ⟨e0, e1, e2, e3, e4, e5⟩ := index_facts t
  funext j
  show FloatOps.addf (V c main_v88 (((cfg1.win 0).blk t).view.emb j)) (V c main_v89 (((cfg1.win 1).blk t).view.emb j))
    = FloatOps.addf (V c main_v88 (((cfg1.win 2).blk t).view.emb j)) (V c main_v89 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 7000 + 1 * (j 0).val = win1_2.index t (0 : Fin 2) * 7000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 7000 + 1 * (j 0).val = win1_2.index t (0 : Fin 2) * 7000 + 1 * (j 0).val; omega
    | ⟨1, _⟩ => show win1_1.index t (1 : Fin 2) * 128 + 1 * (j 1).val = win1_2.index t (1 : Fin 2) * 128 + 1 * (j 1).val; omega
  rw [h0, h1]

/-- An index of the output array lies in point `t`'s block iff each coordinate lies in the block's range on its axis. -/
theorem mem_block (t : Fin cfg1.N) (i : S350000x128.Idx) :
    i ∈ ((cfg1.win 2).blk t).view.set ↔ ∀ a : Fin 2, win1_2.index t a * S7000x128.size a ≤ (i a).val
      ∧ (i a).val < win1_2.index t a * S7000x128.size a + S7000x128.size a := by
  show i ∈ ((View.whole main_v90).slice (win1_2.rect t)).set ↔ _
  rw [View.set_slice_whole, Rect.mem_set_unit]
  exact Iff.rfl

/-- Row `r` lies in the block of point `r / 7000`: the blocks written back cover the output array. -/
theorem covered (i : S350000x128.Idx) :
    ∃ t : Fin cfg1.N, (cfg1.win 2).flush t = true ∧ i ∈ ((cfg1.win 2).blk t).view.set := by
  have hi0 : (i 0).val < 350000 := (i 0).isLt
  have hi1 : (i 1).val < 128 := (i 1).isLt
  have hN : cfg1.N = 50 := N_1
  let t : Fin cfg1.N := ⟨(i 0).val / 7000, by rw [hN]; omega⟩
  have ht : t.val = (i 0).val / 7000 := rfl
  obtain ⟨e0, e1, e2, e3, e4, e5⟩ := index_facts t
  refine ⟨t, flush1_2 t, ?_⟩
  rw [mem_block]
  intro a
  match a with
  | ⟨0, _⟩ => show win1_2.index t (0 : Fin 2) * 7000 ≤ (i 0).val ∧ (i 0).val < win1_2.index t (0 : Fin 2) * 7000 + 7000; omega
  | ⟨1, _⟩ => show win1_2.index t (1 : Fin 2) * 128 ≤ (i 1).val ∧ (i 1).val < win1_2.index t (1 : Fin 2) * 128 + 128; omega

/-- THE OUTPUT ARRAY after the call: the entrywise sum of the two input arrays as the call finds them. -/
theorem output (c : Dev nD) :
    (dat1 V c).arrAt 2 cfg1.N = addf (V c main_v88 : FVec F S350000x128 .f32) (V c main_v89 : FVec F S350000x128 .f32) :=
  (dat1 V c).arrAt_eq_of_cover 2 _ (fun t _ => written_back V c t) covered

end Cert.KernelIdeal.Sum1

end
-- ==== Proof.Scale.lean ====
/-
  What the scaling call leaves in its output array, for any contents `V` of the buffers at its entry.

  The call walks fifty grid points; at point `t` it fetches rows `7000·t … 7000·t + 6999` of its input array (all 128
  columns), multiplies every entry by the scalar `0x3E800000`, and writes the block back to the same rows of the output
  array.  The two index maps agree at every point, so the block written back at `t` is the block of the input array times
  the splatted scalar; and row `r` lies in the block of point `r / 7000`, so the fifty blocks cover the output array.
  Hence the output array ends as the input array times the scalar, entry by entry.
-/
import proofs.«154785_j7868380086591_2_alg».proof.Proof.Gen.KernelIdeal.Frame
import Idealize.ShloMosaic.Lib.Pipeline.Value

set_option maxRecDepth 16384

noncomputable section

namespace Cert.KernelIdeal.Scale

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The body's one load rectangle and one store rectangle start at the block's origin. -/
theorem origin : (![0, 0] : Fin 2 → Nat) = fun _ => 0 := funext fun a => by fin_cases a <;> rfl

/-- The value the body stores is the block it loaded times the splatted scalar. -/
theorem stored_eq (x0 : Vec F S7000x128 .f32) :
    k2_pay1 x0 = mulf x0 (broadcast S7000x128 (Scalar.ofBits (F := F) .f32 0x3E800000#32)) := by
  unfold k2_pay1
  simp only [shapeCast_self]

/-- The two index maps at a grid point: the input moves with the output, whose block row is the point's number and
    whose block column is zero. -/
theorem index_facts : ∀ t : Fin cfg2.N, win2_0.index t (0 : Fin 2) = win2_1.index t (0 : Fin 2)
    ∧ win2_0.index t (1 : Fin 2) = win2_1.index t (1 : Fin 2)
    ∧ win2_1.index t (0 : Fin 2) = t.val
    ∧ win2_1.index t (1 : Fin 2) = 0 :=
  (by decide +kernel : ∀ t : Fin grid2.N, _)

/-- What point `t` writes back is block `t` of the input array, as the call finds it, times the splatted scalar. -/
theorem written_back (c : Dev nD) (t : Fin cfg2.N) :
    (dat2 V c).flushed 1 t
      = ((cfg2.win 1).blk t).view.read (Elt F)
          (mulf (V c main_v124 : FVec F S350000x128 .f32) (broadcast S350000x128 (Scalar.ofBits (F := F) .f32 0x3E800000#32))) := by
  show (cfg2.win 1).cut (grid2.coords t) ((dat2 V c).after 1 t) = _
  rw [after2_1]
  unfold out2_1
  rw [View.canon_unit_zero origin]
  simp only [View.ld_unit_zero (S := S7000x128) origin]
  rw [stored_eq]
  obtain ⟨e0, e1, e2, e3⟩ := index_facts t
  funext j
  show FloatOps.mulf (V c main_v124 (((cfg2.win 0).blk t).view.emb j)) (Scalar.ofBits (F := F) .f32 0x3E800000#32)
    = FloatOps.mulf (V c main_v124 (((cfg2.win 1).blk t).view.emb j)) (Scalar.ofBits (F := F) .f32 0x3E800000#32)
  have h0 : ((cfg2.win 0).blk t).view.emb j = ((cfg2.win 1).blk t).view.emb j := by
    funext a; apply Fin.ext
    match a with
    | ⟨0, _⟩ => show win2_0.index t (0 : Fin 2) * 7000 + 1 * (j 0).val = win2_1.index t (0 : Fin 2) * 7000 + 1 * (j 0).val; omega
    | ⟨1, _⟩ => show win2_0.index t (1 : Fin 2) * 128 + 1 * (j 1).val = win2_1.index t (1 : Fin 2) * 128 + 1 * (j 1).val; omega
  rw [h0]

/-- An index of the output array lies in point `t`'s block iff each coordinate lies in the block's range on its axis. -/
theorem mem_block (t : Fin cfg2.N) (i : S350000x128.Idx) :
    i ∈ ((cfg2.win 1).blk t).view.set ↔ ∀ a : Fin 2, win2_1.index t a * S7000x128.size a ≤ (i a).val
      ∧ (i a).val < win2_1.index t a * S7000x128.size a + S7000x128.size a := by
  show i ∈ ((View.whole main_v125).slice (win2_1.rect t)).set ↔ _
  rw [View.set_slice_whole, Rect.mem_set_unit]
  exact Iff.rfl

/-- Row `r` lies in the block of point `r / 7000`: the blocks written back cover the output array. -/
theorem covered (i : S350000x128.Idx) :
    ∃ t : Fin cfg2.N, (cfg2.win 1).flush t = true ∧ i ∈ ((cfg2.win 1).blk t).view.set := by
  have hi0 : (i 0).val < 350000 := (i 0).isLt
  have hi1 : (i 1).val < 128 := (i 1).isLt
  have hN : cfg2.N = 50 := N_2
  let t : Fin cfg2.N := ⟨(i 0).val / 7000, by rw [hN]; omega⟩
  have ht : t.val = (i 0).val / 7000 := rfl
  obtain ⟨e0, e1, e2, e3⟩ := index_facts t
  refine ⟨t, flush2_1 t, ?_⟩
  rw [mem_block]
  intro a
  match a with
  | ⟨0, _⟩ => show win2_1.index t (0 : Fin 2) * 7000 ≤ (i 0).val ∧ (i 0).val < win2_1.index t (0 : Fin 2) * 7000 + 7000; omega
  | ⟨1, _⟩ => show win2_1.index t (1 : Fin 2) * 128 ≤ (i 1).val ∧ (i 1).val < win2_1.index t (1 : Fin 2) * 128 + 128; omega

/-- THE OUTPUT ARRAY after the call: the input array, as the call finds it, times the splatted scalar. -/
theorem output (c : Dev nD) :
    (dat2 V c).arrAt 1 cfg2.N
      = mulf (V c main_v124 : FVec F S350000x128 .f32) (broadcast S350000x128 (Scalar.ofBits (F := F) .f32 0x3E800000#32)) :=
  (dat2 V c).arrAt_eq_of_cover 1 _ (fun t _ => written_back V c t) covered

end Cert.KernelIdeal.Scale

end
-- ==== Proof.Stretch0.lean ====
/-
  The first stretch of host operations, from any contents `X` of the buffers at the launch: what it leaves in the
  buffers that later segments read.  The two rows of the edge list, the node table, the inverse square-root degrees
  and the first propagation step are the functions of `Proof/Spec.lean` of the three arguments; the first accumulate
  call is handed the node table and the first step on the wide layout.
-/
import proofs.«154785_j7868380086591_2_alg».proof.Proof.Gen.KernelIdeal.Launch
import proofs.«154785_j7868380086591_2_alg».proof.Proof.Spec
import Idealize.ShloMosaic.Lib.StableHlo.Run

set_option maxRecDepth 8192

noncomputable section

namespace Cert.KernelIdeal.Stretch0

open Cert.KernelIdeal Cert.KernelIdeal.Gen
open Idealize.ShloMosaic Idealize.ShloMosaic.TcCoe Idealize.SL.Sem Idealize.ShloMosaic.StableHlo

variable {F : FTy → Type} [FloatOps F]
variable (X : Valuation τ sig (Elt F))

set_option maxHeartbeats 4000000 in
/-- The source list. -/
theorem sources_eq :
    after hostOps0 X (Proc.devRef .tc main_v1)
      = Spec.sources (X (Proc.devRef .tc main_arg0)) := by
  dsimp only [hostOps0]
  after_results_simp
  unfold Spec.sources
  rfl

set_option maxHeartbeats 4000000 in
/-- The destination list. -/
theorem targets_eq :
    after hostOps0 X (Proc.devRef .tc main_v3)
      = Spec.targets (X (Proc.devRef .tc main_arg0)) := by
  dsimp only [hostOps0]
  after_results_simp
  unfold Spec.targets
  rfl

set_option maxHeartbeats 4000000 in
/-- The inverse square-root degrees. -/
theorem degrees_eq :
    after hostOps0 X (Proc.devRef .tc main_v17)
      = Spec.invSqrtDegree (F := F) (Spec.sources (X (Proc.devRef .tc main_arg0))) := by
  dsimp only [hostOps0]
  after_results_simp
  unfold Spec.invSqrtDegree Spec.rowNumbers Spec.sources
  rfl

set_option maxHeartbeats 4000000 in
/-- The first propagation step of the node table. -/
theorem step1_eq :
    after hostOps0 X (Proc.devRef .tc main_v50)
      = Spec.step1 (Spec.sources (X (Proc.devRef .tc main_arg0))) (Spec.targets (X (Proc.devRef .tc main_arg0))) (Spec.invSqrtDegree (Spec.sources (X (Proc.devRef .tc main_arg0)))) (Spec.nodeTable (X (Proc.devRef .tc main_arg1)) (X (Proc.devRef .tc main_arg2))) := by
  dsimp only [hostOps0]
  after_results_simp
  unfold Spec.step1 Spec.spreadInto Spec.edgeWeights Spec.invSqrtDegree Spec.rowNumbers Spec.sources Spec.targets Spec.nodeTable Spec.noRows
  rfl

set_option maxHeartbeats 4000000 in
/-- The node table on the wide layout: the first accumulate call's first input. -/
theorem wideTable_eq :
    after hostOps0 X (Proc.devRef .tc main_v51)
      = Spec.wide (Spec.nodeTable (X (Proc.devRef .tc main_arg1)) (X (Proc.devRef .tc main_arg2))) := by
  dsimp only [hostOps0]
  after_results_simp
  unfold Spec.wide Spec.nodeTable
  rfl

set_option maxHeartbeats 4000000 in
/-- The first step on the wide layout: the first accumulate call's second input. -/
theorem wideStep1_eq :
    after hostOps0 X (Proc.devRef .tc main_v52)
      = Spec.wide (Spec.step1 (Spec.sources (X (Proc.devRef .tc main_arg0))) (Spec.targets (X (Proc.devRef .tc main_arg0))) (Spec.invSqrtDegree (Spec.sources (X (Proc.devRef .tc main_arg0)))) (Spec.nodeTable (X (Proc.devRef .tc main_arg1)) (X (Proc.devRef .tc main_arg2)))) := by
  dsimp only [hostOps0]
  after_results_simp
  unfold Spec.wide Spec.step1 Spec.spreadInto Spec.edgeWeights Spec.invSqrtDegree Spec.rowNumbers Spec.sources Spec.targets Spec.nodeTable Spec.noRows
  rfl

end Cert.KernelIdeal.Stretch0

end
-- ==== Proof.Stretch1.lean ====
/-
  The second stretch of host operations (between the two accumulate calls), from any contents `X` of the buffers at
  its entry.  It reads the first call's output, the two lists, the degrees' inverse square roots and the first step; it
  leaves the second propagation step, and hands the second accumulate call the first call's output (brought back to
  the narrow layout and widened again) and the second step on the wide layout.  It writes none of the buffers it reads.
-/
import proofs.«154785_j7868380086591_2_alg».proof.Proof.Gen.KernelIdeal.Launch
import proofs.«154785_j7868380086591_2_alg».proof.Proof.Spec
import Idealize.ShloMosaic.Lib.StableHlo.Run

set_option maxRecDepth 8192

noncomputable section

namespace Cert.KernelIdeal.Stretch1

open Cert.KernelIdeal Cert.KernelIdeal.Gen
open Idealize.ShloMosaic Idealize.ShloMosaic.TcCoe Idealize.SL.Sem Idealize.ShloMosaic.StableHlo

variable {F : FTy → Type} [FloatOps F]
variable (X : Valuation τ sig (Elt F))

set_option maxHeartbeats 4000000 in
/-- The source list is not written. -/
theorem keep_sources :
    after hostOps1 X (Proc.devRef .tc main_v1)
      = X (Proc.devRef .tc main_v1) := by
  dsimp only [hostOps1]
  after_results_simp

set_option maxHeartbeats 4000000 in
/-- The destination list is not written. -/
theorem keep_targets :
    after hostOps1 X (Proc.devRef .tc main_v3)
      = X (Proc.devRef .tc main_v3) := by
  dsimp only [hostOps1]
  after_results_simp

set_option maxHeartbeats 4000000 in
/-- The inverse square-root degrees are not written. -/
theorem keep_degrees :
    after hostOps1 X (Proc.devRef .tc main_v17)
      = X (Proc.devRef .tc main_v17) := by
  dsimp only [hostOps1]
  after_results_simp

set_option maxHeartbeats 4000000 in
/-- The second propagation step: one step of the first. -/
theorem step2_eq :
    after hostOps1 X (Proc.devRef .tc main_v87)
      = Spec.spreadInto (X (Proc.devRef .tc main_v1)) (X (Proc.devRef .tc main_v3)) (X (Proc.devRef .tc main_v17)) Spec.noRows (X (Proc.devRef .tc main_v50)) := by
  dsimp only [hostOps1]
  after_results_simp
  unfold Spec.spreadInto Spec.edgeWeights Spec.rowNumbers Spec.noRows
  rfl

set_option maxHeartbeats 4000000 in
/-- The first call's output, narrowed and widened again: the second call's first input. -/
theorem wideSum_eq :
    after hostOps1 X (Proc.devRef .tc main_v88)
      = Spec.wide (Spec.narrow (X (Proc.devRef .tc main_v53))) := by
  dsimp only [hostOps1]
  after_results_simp
  unfold Spec.wide Spec.narrow
  rfl

set_option maxHeartbeats 4000000 in
/-- The second step on the wide layout: the second call's second input. -/
theorem wideStep2_eq :
    after hostOps1 X (Proc.devRef .tc main_v89)
      = Spec.wide (Spec.spreadInto (X (Proc.devRef .tc main_v1)) (X (Proc.devRef .tc main_v3)) (X (Proc.devRef .tc main_v17)) Spec.noRows (X (Proc.devRef .tc main_v50))) := by
  dsimp only [hostOps1]
  after_results_simp
  unfold Spec.wide Spec.spreadInto Spec.edgeWeights Spec.rowNumbers Spec.noRows
  rfl

end Cert.KernelIdeal.Stretch1

end
-- ==== Proof.Stretch2.lean ====
/-
  The third stretch of host operations (between the second accumulate call and the scaling call), from any contents
  `X` of the buffers at its entry.  It narrows the second call's output, lets the third propagation step (one step of
  the second) accumulate straight into it, and hands the result to the scaling call on the wide layout.
-/
import proofs.«154785_j7868380086591_2_alg».proof.Proof.Gen.KernelIdeal.Launch
import proofs.«154785_j7868380086591_2_alg».proof.Proof.Spec
import Idealize.ShloMosaic.Lib.StableHlo.Run

set_option maxRecDepth 8192

noncomputable section

namespace Cert.KernelIdeal.Stretch2

open Cert.KernelIdeal Cert.KernelIdeal.Gen
open Idealize.ShloMosaic Idealize.ShloMosaic.TcCoe Idealize.SL.Sem Idealize.ShloMosaic.StableHlo

variable {F : FTy → Type} [FloatOps F]
variable (X : Valuation τ sig (Elt F))

set_option maxHeartbeats 4000000 in
/-- The running sum with the third step accumulated into it, on the wide layout: the scaling call's input. -/
theorem wideTotal_eq :
    after hostOps2 X (Proc.devRef .tc main_v124)
      = Spec.wide (Spec.spreadInto (X (Proc.devRef .tc main_v1)) (X (Proc.devRef .tc main_v3)) (X (Proc.devRef .tc main_v17)) (Spec.narrow (X (Proc.devRef .tc main_v90))) (X (Proc.devRef .tc main_v87))) := by
  dsimp only [hostOps2]
  after_results_simp
  unfold Spec.wide Spec.narrow Spec.spreadInto Spec.edgeWeights Spec.rowNumbers
  rfl

end Cert.KernelIdeal.Stretch2

end
-- ==== Proof.Stretch3.lean ====
/-
  The closing stretch of host operations, from any contents `X` of the buffers at its entry: the scaling call's output
  is narrowed, and the two results are its first 400000 rows and its remaining 300000 rows.
-/
import proofs.«154785_j7868380086591_2_alg».proof.Proof.Gen.KernelIdeal.Launch
import proofs.«154785_j7868380086591_2_alg».proof.Proof.Spec
import Idealize.ShloMosaic.Lib.StableHlo.Run

set_option maxRecDepth 8192

noncomputable section

namespace Cert.KernelIdeal.Stretch3

open Cert.KernelIdeal Cert.KernelIdeal.Gen
open Idealize.ShloMosaic Idealize.ShloMosaic.TcCoe Idealize.SL.Sem Idealize.ShloMosaic.StableHlo

variable {F : FTy → Type} [FloatOps F]
variable (X : Valuation τ sig (Elt F))

/-- The first result: the user rows. -/
theorem users_eq :
    after hostOps3 X (Proc.devRef .tc main_v127)
      = Spec.userRows (Spec.narrow (X (Proc.devRef .tc main_v125))) := by
  dsimp only [hostOps3]
  after_results_simp
  unfold Spec.userRows Spec.narrow
  rfl

/-- The second result: the product rows. -/
theorem products_eq :
    after hostOps3 X (Proc.devRef .tc main_v128)
      = Spec.productRows (Spec.narrow (X (Proc.devRef .tc main_v125))) := by
  dsimp only [hostOps3]
  after_results_simp
  unfold Spec.productRows Spec.narrow
  rfl

end Cert.KernelIdeal.Stretch3

end
-- ==== Proof.Chain.lean ====
/-
  The kernel program's two results as functions of the launch memory, read along the chain of boundary contents.

  After the first stretch the buffers hold the two lists, the inverse square-root degrees, the first propagation step,
  and the node table and first step on the wide layout.  The first accumulate call writes only its own three arrays,
  so everything else is carried across it; its output is the sum of its two inputs.  The second stretch leaves the
  second step and hands the second call the running sum and the second step on the wide layout; the second call's
  output is their sum.  The third stretch lets the third step accumulate into the running sum; the scaling call
  multiplies by the scalar; the closing stretch narrows and slices.  Written out, the last array is
  `Spec.viaViews` of the two lists, the degrees' inverse square roots and the node table.
-/
import proofs.«154785_j7868380086591_2_alg».proof.Proof.Gen.KernelIdeal.Frame
import proofs.«154785_j7868380086591_2_alg».proof.Proof.Spec
import proofs.«154785_j7868380086591_2_alg».proof.Proof.Sum0
import proofs.«154785_j7868380086591_2_alg».proof.Proof.Sum1
import proofs.«154785_j7868380086591_2_alg».proof.Proof.Scale
import proofs.«154785_j7868380086591_2_alg».proof.Proof.Stretch0
import proofs.«154785_j7868380086591_2_alg».proof.Proof.Stretch1
import proofs.«154785_j7868380086591_2_alg».proof.Proof.Stretch2
import proofs.«154785_j7868380086591_2_alg».proof.Proof.Stretch3

set_option maxRecDepth 16384

noncomputable section

namespace Cert.KernelIdeal.Chain

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The source list of the edge list core `c` was launched with. -/
abbrev src (c : Dev nD) : IVec S1200000 32 := Spec.sources (m ((c : Thread nD τ).loc main_arg0))
/-- Its destination list. -/
abbrev dst (c : Dev nD) : IVec S1200000 32 := Spec.targets (m ((c : Thread nD τ).loc main_arg0))
/-- The inverse square-root degrees of its source list. -/
abbrev deg (c : Dev nD) : FVec F S700000 .f32 := Spec.invSqrtDegree (F := F) (src m c)
/-- The node table of the two embedding arrays core `c` was launched with. -/
abbrev tbl (c : Dev nD) : FVec F S700000x64 .f32 :=
  Spec.nodeTable (m ((c : Thread nD τ).loc main_arg1)) (m ((c : Thread nD τ).loc main_arg2))

/-! ## After the first stretch -/

theorem at1_sources (c : Dev nD) : W1 m ρ c (Proc.devRef .tc main_v1) = src m c := Stretch0.sources_eq (W0 m ρ c)
theorem at1_targets (c : Dev nD) : W1 m ρ c (Proc.devRef .tc main_v3) = dst m c := Stretch0.targets_eq (W0 m ρ c)
theorem at1_degrees (c : Dev nD) : W1 m ρ c (Proc.devRef .tc main_v17) = deg m c := Stretch0.degrees_eq (W0 m ρ c)
theorem at1_step1 (c : Dev nD) : W1 m ρ c (Proc.devRef .tc main_v50) = Spec.step1 (src m c) (dst m c) (deg m c) (tbl m c) := Stretch0.step1_eq (W0 m ρ c)
theorem at1_wideTable (c : Dev nD) : W1 m ρ c (Proc.devRef .tc main_v51) = Spec.wide (tbl m c) := Stretch0.wideTable_eq (W0 m ρ c)
theorem at1_wideStep1 (c : Dev nD) : W1 m ρ c (Proc.devRef .tc main_v52) = Spec.wide (Spec.step1 (src m c) (dst m c) (deg m c) (tbl m c)) :=
  Stretch0.wideStep1_eq (W0 m ρ c)

/-! ## After the first accumulate call: its output is the sum of its inputs, the rest is carried across -/

theorem at2_sources (c : Dev nD) : W2 m ρ c (Proc.devRef .tc main_v1) = src m c :=
  (W2_of_ne m ρ c main_v1 (by decide)).trans (at1_sources m ρ c)
theorem at2_targets (c : Dev nD) : W2 m ρ c (Proc.devRef .tc main_v3) = dst m c :=
  (W2_of_ne m ρ c main_v3 (by decide)).trans (at1_targets m ρ c)
theorem at2_degrees (c : Dev nD) : W2 m ρ c (Proc.devRef .tc main_v17) = deg m c :=
  (W2_of_ne m ρ c main_v17 (by decide)).trans (at1_degrees m ρ c)
theorem at2_step1 (c : Dev nD) : W2 m ρ c (Proc.devRef .tc main_v50) = Spec.step1 (src m c) (dst m c) (deg m c) (tbl m c) :=
  (W2_of_ne m ρ c main_v50 (by decide)).trans (at1_step1 m ρ c)
theorem at2_sum (c : Dev nD) :
    W2 m ρ c (Proc.devRef .tc main_v53) = addf (Spec.wide (tbl m c)) (Spec.wide (Spec.step1 (src m c) (dst m c) (deg m c) (tbl m c))) := by
  refine (W2_arr m ρ c 2).trans ?_
  rw [Sum0.output (V1 m ρ) c]
  show addf (W1 m ρ c (Proc.devRef .tc main_v51)) (W1 m ρ c (Proc.devRef .tc main_v52)) = _
  rw [at1_wideTable, at1_wideStep1]

/-! ## After the second stretch -/

theorem at3_sources (c : Dev nD) : W3 m ρ c (Proc.devRef .tc main_v1) = src m c :=
  (Stretch1.keep_sources (W2 m ρ c)).trans (at2_sources m ρ c)
theorem at3_targets (c : Dev nD) : W3 m ρ c (Proc.devRef .tc main_v3) = dst m c :=
  (Stretch1.keep_targets (W2 m ρ c)).trans (at2_targets m ρ c)
theorem at3_degrees (c : Dev nD) : W3 m ρ c (Proc.devRef .tc main_v17) = deg m c :=
  (Stretch1.keep_degrees (W2 m ρ c)).trans (at2_degrees m ρ c)
theorem at3_step2 (c : Dev nD) : W3 m ρ c (Proc.devRef .tc main_v87) = Spec.step2 (src m c) (dst m c) (deg m c) (tbl m c) := by
  refine (Stretch1.step2_eq (W2 m ρ c)).trans ?_
  rw [at2_sources, at2_targets, at2_degrees, at2_step1]
  rfl
theorem at3_wideSum (c : Dev nD) : W3 m ρ c (Proc.devRef .tc main_v88) = Spec.wide (Spec.sum1 (src m c) (dst m c) (deg m c) (tbl m c)) := by
  refine (Stretch1.wideSum_eq (W2 m ρ c)).trans ?_
  rw [at2_sum]
  rfl
theorem at3_wideStep2 (c : Dev nD) : W3 m ρ c (Proc.devRef .tc main_v89) = Spec.wide (Spec.step2 (src m c) (dst m c) (deg m c) (tbl m c)) := by
  refine (Stretch1.wideStep2_eq (W2 m ρ c)).trans ?_
  rw [at2_sources, at2_targets, at2_degrees, at2_step1]
  rfl

/-! ## After the second accumulate call -/

theorem at4_sources (c : Dev nD) : W4 m ρ c (Proc.devRef .tc main_v1) = src m c :=
  (W4_of_ne m ρ c main_v1 (by decide)).trans (at3_sources m ρ c)
theorem at4_targets (c : Dev nD) : W4 m ρ c (Proc.devRef .tc main_v3) = dst m c :=
  (W4_of_ne m ρ c main_v3 (by decide)).trans (at3_targets m ρ c)
theorem at4_degrees (c : Dev nD) : W4 m ρ c (Proc.devRef .tc main_v17) = deg m c :=
  (W4_of_ne m ρ c main_v17 (by decide)).trans (at3_degrees m ρ c)
theorem at4_step2 (c : Dev nD) : W4 m ρ c (Proc.devRef .tc main_v87) = Spec.step2 (src m c) (dst m c) (deg m c) (tbl m c) :=
  (W4_of_ne m ρ c main_v87 (by decide)).trans (at3_step2 m ρ c)
theorem at4_sum (c : Dev nD) :
    W4 m ρ c (Proc.devRef .tc main_v90) = addf (Spec.wide (Spec.sum1 (src m c) (dst m c) (deg m c) (tbl m c))) (Spec.wide (Spec.step2 (src m c) (dst m c) (deg m c) (tbl m c))) := by
  refine (W4_arr m ρ c 2).trans ?_
  rw [Sum1.output (V3 m ρ) c]
  show addf (W3 m ρ c (Proc.devRef .tc main_v88)) (W3 m ρ c (Proc.devRef .tc main_v89)) = _
  rw [at3_wideSum, at3_wideStep2]

/-! ## After the third stretch, the scaling call, and the closing stretch -/

theorem at5_total (c : Dev nD) :
    W5 m ρ c (Proc.devRef .tc main_v124)
      = Spec.wide (Spec.spreadInto (src m c) (dst m c) (deg m c) (Spec.sum2 (src m c) (dst m c) (deg m c) (tbl m c)) (Spec.step2 (src m c) (dst m c) (deg m c) (tbl m c))) := by
  refine (Stretch2.wideTotal_eq (W4 m ρ c)).trans ?_
  rw [at4_sources, at4_targets, at4_degrees, at4_step2, at4_sum]
  rfl

theorem at6_scaled (c : Dev nD) :
    W6 m ρ c (Proc.devRef .tc main_v125)
      = mulf (Spec.wide (Spec.spreadInto (src m c) (dst m c) (deg m c) (Spec.sum2 (src m c) (dst m c) (deg m c) (tbl m c)) (Spec.step2 (src m c) (dst m c) (deg m c) (tbl m c))))
          (broadcast S350000x128 (Scalar.ofBits (F := F) .f32 0x3E800000#32)) := by
  refine (W6_arr m ρ c 1).trans ?_
  rw [Scale.output (V5 m ρ) c]
  show mulf (W5 m ρ c (Proc.devRef .tc main_v124)) _ = _
  rw [at5_total]

/-- THE FIRST RESULT: the user rows of the mean formed through the wide layout. -/
theorem users_eq (c : Dev nD) : W7 m ρ c (Proc.devRef .tc main_v127) = Spec.userRows (Spec.viaViews (src m c) (dst m c) (deg m c) (tbl m c)) := by
  refine (Stretch3.users_eq (W6 m ρ c)).trans ?_
  rw [at6_scaled]
  rfl

/-- THE SECOND RESULT: its product rows. -/
theorem products_eq (c : Dev nD) : W7 m ρ c (Proc.devRef .tc main_v128) = Spec.productRows (Spec.viaViews (src m c) (dst m c) (deg m c) (tbl m c)) := by
  refine (Stretch3.products_eq (W6 m ρ c)).trans ?_
  rw [at6_scaled]
  rfl

end Cert.KernelIdeal.Chain

end
-- ==== Proof.LibRepack.lean ====
/-
  General laws used when a pointwise step is carried out on a re-arranged (row-major reshaped) copy of an array,
  and when updates are accumulated into an array rather than into zeros.

  * A reshape only renames indices, so a pointwise operation commutes with it; reshaping there, operating, and
    reshaping back is the operation itself (`repack_add`, `repack_scale`).
  * Over the extended reals the host's accumulating scatter is, entry by entry, the operand's entry plus the sum
    of the updates landing there.  Hence scattering into an array `a` is `a` plus the scatter into any array of
    zeros: only `0 + x = x` is used, so nothing is asked of the entries (infinite ones included)
    (`scatterAdd_into`).
  * The word `0x3E800000` is one quarter and `0x40800000` is four, and on every extended real the product with
    one quarter is the host's quotient by four (`mul_quarter_eq_div_four`).
-/
import Idealize.ShloMosaic.PureOps.Ideal
import Idealize.ShloMosaic.PureOps.Ideal.Laws
import Idealize.ShloMosaic.Lib.Pipeline.Value

noncomputable section

namespace Cert.LibRepack

open Idealize.ShloMosaic

section AnyFloat
variable {F : FTy → Type} [FloatOps F]

/-- A sum formed on reshaped copies of two arrays and reshaped back is the sum of the arrays. -/
theorem repack_add {s t : Shape} {φ : FTy} (a b : FVec F s φ) (h : s.ShapeCasts t) (h' : t.ShapeCasts s) :
    shapeCast s (addf (shapeCast t a h) (shapeCast t b h)) h' = addf a b := by
  have e : addf (shapeCast t a h) (shapeCast t b h) = shapeCast t (addf a b) h := rfl
  rw [e, shapeCast_shapeCast]

/-- A product with one splatted scalar formed on a reshaped copy and reshaped back is the product with the same
    scalar splatted at the array's own shape. -/
theorem repack_scale {s t : Shape} {φ : FTy} (x : FVec F s φ) (k : F φ) (h : s.ShapeCasts t) (h' : t.ShapeCasts s) :
    shapeCast s (mulf (shapeCast t x h) (broadcast t k)) h' = mulf x (broadcast s k) := by
  have e : mulf (shapeCast t x h) (broadcast t k) = shapeCast t (mulf x (broadcast s k)) h := rfl
  rw [e, shapeCast_shapeCast]

end AnyFloat

/-- A scalar zero splatted to any shape is zero at every index. -/
theorem zeros_apply {s : Shape} (bc : (⟨0, ![]⟩ : Shape).BroadcastsInDim s ![]) (i : s.Idx) :
    broadcastInDim s ![] bc (constant (F := Ideal) ⟨0, ![]⟩ .f32 0x00000000#32) i = 0 := by
  simp only [broadcastInDim, constant, Ideal.ofBits_def, Ideal.ofBits_zero_f32]

/-- Accumulating updates into an array is the array plus the same updates accumulated into zeros. -/
theorem scatterAdd_into {s si su : Shape} (d : ScatterDims s si su) {w : Nat} (a z : FVec Ideal s .f32)
    (idx : IVec si w) (u : FVec Ideal su .f32) (hz : ∀ i, z i = 0) :
    Host.scatterAdd d a idx u = addf a (Host.scatterAdd d z idx u) := by
  funext i
  simp only [Host.scatterAdd, addf, Ideal.hostScatterAdd_def, Ideal.hostScatterAdd, Ideal.addf_def, hz, zero_add]

/-- The word `0x3E800000` denotes one quarter. -/
theorem ofBits_quarter : Ideal.ofBits .f32 0x3E800000#32 = ((1 / 4 : ℝ) : EReal) := by
  simp [Ideal.ofBits, Ideal.ieee, -EReal.coe_mul]; norm_num

/-- The word `0x40800000` denotes four. -/
theorem ofBits_four : Ideal.ofBits .f32 0x40800000#32 = ((4 : ℝ) : EReal) := by
  simp [Ideal.ofBits, Ideal.ieee, -EReal.coe_mul]; norm_num

/-- Entry by entry, an array times the splatted quarter is the host's quotient of the array by the splatted four. -/
theorem mul_quarter_eq_div_four {s : Shape} (x : FVec Ideal s .f32) (bc : (⟨0, ![]⟩ : Shape).BroadcastsInDim s ![]) :
    mulf x (broadcast s (Scalar.ofBits (F := Ideal) .f32 0x3E800000#32))
      = Host.divf x (broadcastInDim s ![] bc (constant ⟨0, ![]⟩ .f32 0x40800000#32)) := by
  funext i
  simp only [mulf, Host.divf, broadcast, broadcastInDim, constant, Scalar.ofBits, Ideal.mulf_def, Ideal.hostDivf_def,
    Ideal.ofBits_def, ofBits_quarter, ofBits_four, Ideal.div_coe (by norm_num : (4 : ℝ) ≠ 0)]

end Cert.LibRepack

end
-- ==== Proof.SpecEq.lean ====
/-
  Over the extended reals the two spellings of the mean in `Proof/Spec.lean` are one function.

  Three facts join them.  A reshape only renames indices, so a running sum formed on the wide layout and brought back is
  the running sum itself.  The accumulating scatter is, entry by entry, the starting entry plus the sum of what lands
  there; so letting the third step accumulate into the running sum is adding to the running sum the third step
  accumulated from zeros (only `0 + x = x` and the reading of the scatter are used: no entry need be finite).  And the
  product with one quarter is the quotient by four on every extended real.
-/
import proofs.«154785_j7868380086591_2_alg».proof.Proof.Spec
import proofs.«154785_j7868380086591_2_alg».proof.Proof.LibRepack

noncomputable section

namespace Cert.KernelIdeal.Spec

open Cert.KernelIdeal Cert.KernelIdeal.Facts₀ Cert.KernelIdeal.Facts
open Idealize.ShloMosaic

/-- A propagation step accumulated into `start` is `start` plus the step accumulated from zeros. -/
theorem spreadInto_start (r c : IVec S1200000 32) (d : FVec Ideal S700000 .f32) (start x : FVec Ideal S700000x64 .f32) :
    spreadInto r c d start x = addf start (spreadInto r c d noRows x) := by
  unfold spreadInto
  exact Cert.LibRepack.scatterAdd_into _ start noRows _ _ (fun i => Cert.LibRepack.zeros_apply bcast_S_S700000x64 i)

/-- The mean formed through the wide layout, with the third step accumulated in place and a final quarter, is the
    plain mean: the table plus its three steps, divided by four. -/
theorem viaViews_eq_plain (r c : IVec S1200000 32) (d : FVec Ideal S700000 .f32) (x : FVec Ideal S700000x64 .f32) :
    viaViews r c d x = plain r c d x := by
  unfold viaViews plain sum2 sum1 wide narrow
  rw [Cert.LibRepack.repack_scale, Cert.LibRepack.mul_quarter_eq_div_four _ bcast_S_S700000x64]
  simp only [Cert.LibRepack.repack_add]
  rw [spreadInto_start]

end Cert.KernelIdeal.Spec

end
-- ==== Proof.RefValue.lean ====
/-
  The reference program's result, read as the plain mean of `Proof/Spec.lean`.

  The reference's run ends with its two results at slices of one array: the node table plus three propagation steps,
  each step recomputing the inverse square-root degrees from the same source list, divided by four.  The three
  recomputations are one term, so the array is `Spec.plain` of the edge list's two rows, the inverse square-root
  degrees and the node table.
-/
import proofs.«154785_j7868380086591_2_alg».proof.Proof.Spec
import proofs.«154785_j7868380086591_2_alg».proof.Proof.Gen.ReferenceIdeal.Run

set_option maxRecDepth 8192

noncomputable section

namespace Cert.ReferenceIdeal.RefValue

open Idealize.ShloMosaic Idealize.ShloMosaic.TcCoe Idealize.SL.Sem
open Cert.ReferenceIdeal.Value
open Cert.KernelIdeal (S2x1200000 S400000x64 S300000x64 S700000x64 S700000 S1200000)

variable {F : FTy → Type} [FloatOps F]

/-- The reference's last array before the two slices is the plain mean of the arguments it was launched with. -/
theorem total_eq (V0 : Valuation Cert.ReferenceIdeal.τ Cert.ReferenceIdeal.sig (Elt F))
    (e : IVec S2x1200000 32) (u : FVec F S400000x64 .f32) (p : FVec F S300000x64 .f32)
    (he : V0 (Proc.devRef .tc Cert.ReferenceIdeal.main_arg0) = e)
    (hu : V0 (Proc.devRef .tc Cert.ReferenceIdeal.main_arg1) = u)
    (hp : V0 (Proc.devRef .tc Cert.ReferenceIdeal.main_arg2) = p) :
    res_main_v147 V0
      = Cert.KernelIdeal.Spec.plain (Cert.KernelIdeal.Spec.sources e) (Cert.KernelIdeal.Spec.targets e)
          (Cert.KernelIdeal.Spec.invSqrtDegree (Cert.KernelIdeal.Spec.sources e)) (Cert.KernelIdeal.Spec.nodeTable u p) := by
  subst he hu hp
  unfold res_main_v147 res_main_v97 res_main_v50 res_main_v111 res_main_v64 res_main_v17 res_main_v4 res_main_v3 res_main_v1
  unfold Cert.KernelIdeal.Spec.plain Cert.KernelIdeal.Spec.step2 Cert.KernelIdeal.Spec.step1 Cert.KernelIdeal.Spec.spreadInto
    Cert.KernelIdeal.Spec.edgeWeights Cert.KernelIdeal.Spec.invSqrtDegree Cert.KernelIdeal.Spec.rowNumbers
    Cert.KernelIdeal.Spec.sources Cert.KernelIdeal.Spec.targets Cert.KernelIdeal.Spec.nodeTable Cert.KernelIdeal.Spec.noRows
  rfl

end Cert.ReferenceIdeal.RefValue

end
-- ==== Proof.lean ====
/-
  Degree-normalised graph propagation: a program with three tiled calls against a plain host program.

  Both programs take an edge list and two embedding tables, stack the tables into one node table, and return (as its
  user rows and its product rows) the mean of the node table and its first three propagation steps, where one step
  sends along every edge the source's row, weighted by the inverse square roots of the two endpoints' degrees, and
  adds up what arrives at each node.

  The host program adds the three steps to the table one after the other and divides by four.  The tiled program
  forms the first two running sums by a tiled add on a re-arranged copy of the arrays (350000 rows of 128, fifty
  blocks of 7000 rows), lets the third step accumulate straight into the running sum, and multiplies by the scalar
  one quarter in a third tiled call.  Over the extended reals these are one function: a reshape only renames indices;
  accumulating into an array is the array plus the accumulation from zeros; and the product with one quarter is the
  quotient by four (`Proof/SpecEq.lean`).  No entry need be finite for any of this, so the precondition is not used.

  The pieces: `Proof/Spec.lean` names the functions; `Proof/Sum0.lean`, `Sum1.lean` and `Scale.lean` read what each
  tiled call leaves in its output array; `Proof/Stretch0.lean` … `Stretch3.lean` read the host operations between
  the calls; `Proof/Chain.lean` chains them from the launch memory to the two results; `Proof/KernelRun.lean` is the
  tiled program's run with its results kept; `Proof/RefValue.lean` reads the host program's result.
  The rewriting pass that idealizes the tiled program changed nothing, so that conjunct is `True`.
-/
import proofs.«154785_j7868380086591_2_alg».proof.Defs
import proofs.«154785_j7868380086591_2_alg».proof.Proof.Gen.Kernel
import proofs.«154785_j7868380086591_2_alg».proof.Proof.Gen.Kernel.Frame
import proofs.«154785_j7868380086591_2_alg».proof.Proof.Gen.KernelIdeal
import proofs.«154785_j7868380086591_2_alg».proof.Proof.Gen.KernelIdeal.Frame
import proofs.«154785_j7868380086591_2_alg».proof.Proof.Gen.ReferenceIdeal
import proofs.«154785_j7868380086591_2_alg».proof.Proof.Gen.ReferenceIdeal.Run
import proofs.«154785_j7868380086591_2_alg».proof.Proof.Gen.Pre_finite_inputs
import proofs.«154785_j7868380086591_2_alg».proof.Proof.KernelRun
import proofs.«154785_j7868380086591_2_alg».proof.Proof.Chain
import proofs.«154785_j7868380086591_2_alg».proof.Proof.SpecEq
import proofs.«154785_j7868380086591_2_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The host program's run, with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealizing pass rewrote nothing. -/
theorem preserves : Cert.preserves_Kernel_KernelIdeal := trivial

/-- From memories agreeing on the three arguments both programs end with the user rows and the product rows of one
    array: the plain mean of the node table and its three propagation steps. -/
theorem algebraic : Cert.algebraic_KernelIdeal_ReferenceIdeal := by
  intro m ρ m' ρ' _ hagree
  refine ⟨fun c => Cert.KernelIdeal.Spec.userRows (Cert.KernelIdeal.Spec.plain (Cert.KernelIdeal.Chain.src m c)
            (Cert.KernelIdeal.Chain.dst m c) (Cert.KernelIdeal.Chain.deg m c) (Cert.KernelIdeal.Chain.tbl m c)),
          fun c => Cert.KernelIdeal.Spec.productRows (Cert.KernelIdeal.Spec.plain (Cert.KernelIdeal.Chain.src m c)
            (Cert.KernelIdeal.Chain.dst m c) (Cert.KernelIdeal.Chain.deg m c) (Cert.KernelIdeal.Chain.tbl m c)), ?_, ?_⟩
  · refine (θ_run Cert.KernelIdeal.defs _ _).mono (fun r h c => ?_) (Cert.KernelIdeal.Fold.run (F := Ideal) m ρ)
    obtain ⟨h1, h2, h3, h4, h5⟩ := h c
    refine ⟨h1.trans ?_, h2.trans ?_, h3, h4, h5⟩
    · rw [Cert.KernelIdeal.Chain.users_eq, Cert.KernelIdeal.Spec.viaViews_eq_plain]
    · rw [Cert.KernelIdeal.Chain.products_eq, Cert.KernelIdeal.Spec.viaViews_eq_plain]
  · refine (θ_run Cert.ReferenceIdeal.defs _ _).mono (fun r h c => ?_) (Cert.ReferenceIdeal.Value.run (F := Ideal) m' ρ')
    obtain ⟨h1, h2, h3, h4, h5⟩ := h c
    refine ⟨h1.trans ?_, h2.trans ?_, h3, h4, h5⟩
    · rw [Cert.ReferenceIdeal.RefValue.total_eq (StableHlo.launchContents m' c) _ _ _ (hagree c).1 (hagree c).2.1 (hagree c).2.2]
      rfl
    · rw [Cert.ReferenceIdeal.RefValue.total_eq (StableHlo.launchContents m' c) _ _ _ (hagree c).1 (hagree c).2.1 (hagree c).2.2]
      rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
